-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v63)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v63) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v98) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S1600000 : Shape := ⟨1, ![1600000]⟩
abbrev S128x64 : Shape := ⟨2, ![128, 64]⟩
abbrev S64 : Shape := ⟨1, ![64]⟩
abbrev S64x40 : Shape := ⟨2, ![64, 40]⟩
abbrev S40 : Shape := ⟨1, ![40]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x40 : S_.BroadcastsInDim S64x40 (![] : Fin 0 → Fin S64x40.rank)
  reducesTo_S64x40_S_d0_1 : S64x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg5 : FVec F S64x40 .f32) (main_arg6 : FVec F S40 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x40 .f32 := Host.absf main_arg5
  let main_cst_6 : FVec F S_ .f32 := constant S_ .f32 0x7F800000#32
  let main_v20 : FVec F S64x40 .f32 := broadcastInDim S64x40 ![] bcast_S_S64x40 main_cst_6
  let main_v21 : IVec S64x40 1 := cmpf .olt main_v19 main_v20
  let main_c_7 : IVec S_ 1 := constantI S_ 1 1#1
  let main_v22 : IVec S_ 1 := (fun x v => Host.reduce IntOp.andi x v reducesTo_S64x40_S_d0_1 h_S_) main_v21 main_c_7
  let main_v23 : IVec S_ 1 := andi main_v18 main_v22
  let main_v24 : FVec F S40 .f32 := Host.absf main_arg6
  let main_cst_8 : FVec F S_ .f32 := constant S_ .f32 0x7F800000#32
  let main_v25 : FVec F S40 .f32 := broadcastInDim S40 ![] bcast_S_S40 main_cst_8
  let main_v26 : IVec S40 1 := cmpf .olt main_v24 main_v25
  let main_c_9 : IVec S_ 1 := constantI S_ 1 1#1
  let main_v27 : IVec S_ 1 := (fun x v => Host.reduce IntOp.andi x v reducesTo_S40_S_d0 h_S_) main_v26 main_c_9
  let main_v28 : IVec S_ 1 := andi main_v23 main_v27
  main_v28

def fn {F : FTy → Type} [FloatOps F] (main_arg0 : FVec F S100000x128 .f32) (main_arg1 : IVec S2x1600000 32) (main_arg2 : FVec F S1600000 .f32) (main_arg3 : FVec F S128x64 .f32) (main_arg4 : FVec F S64 .f32) (main_arg5 : FVec F S64x40 .f32) (main_arg6 : FVec F S40 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000 .f32 := Host.absf main_arg2
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S128x64 .f32 := Host.absf main_arg3
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_v13 main_v16
-- ==== Kernel.lean ====
abbrev S100000x128 : Shape := ⟨2, ![100000, 128]⟩
abbrev S2x1600000 : Shape := ⟨2, ![2, 1600000]⟩
abbrev S1600000 : Shape := ⟨1, ![1600000]⟩
abbrev S128x64 : Shape := ⟨2, ![128, 64]⟩
abbrev S64 : Shape := ⟨1, ![64]⟩
abbrev S64x40 : Shape := ⟨2, ![64, 40]⟩
abbrev S40 : Shape := ⟨1, ![40]⟩
abbrev S100000 : Shape := ⟨1, ![100000]⟩
abbrev S1x1600000 : Shape := ⟨2, ![1, 1600000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S5000x128 : Shape := ⟨2, ![5000, 128]⟩
abbrev S5000x64 : Shape := ⟨2, ![5000, 64]⟩
abbrev S1700000x64 : Shape := ⟨2, ![1700000, 64]⟩
abbrev S1x64 : Shape := ⟨2, ![1, 64]⟩
abbrev S100000x40 : Shape := ⟨2, ![100000, 40]⟩
abbrev S5000x40 : Shape := ⟨2, ![5000, 40]⟩
abbrev S1700000x40 : Shape := ⟨2, ![1700000, 40]⟩
abbrev S1x40 : Shape := ⟨2, ![1, 40]⟩

abbrev nBuf : Space → Nat
  | .hbm => 87
  | .vmem => 20
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S1600000, .f32⟩
  | .hbm, ⟨3, _⟩ => ⟨S128x64, .f32⟩
  | .hbm, ⟨4, _⟩ => ⟨S64, .f32⟩
  | .hbm, ⟨5, _⟩ => ⟨S64x40, .f32⟩
  | .hbm, ⟨6, _⟩ => ⟨S40, .f32⟩
  | .hbm, ⟨7, _⟩ => ⟨S100000, .i32⟩
  | .hbm, ⟨8, _⟩ => ⟨S1x1600000, .i32⟩
  | .hbm, ⟨9, _⟩ => ⟨S1600000, .i32⟩
  | .hbm, ⟨10, _⟩ => ⟨S1700000, .i32⟩
  | .hbm, ⟨11, _⟩ => ⟨S1x1600000, .i32⟩
  | .hbm, ⟨12, _⟩ => ⟨S1600000, .i32⟩
  | .hbm, ⟨13, _⟩ => ⟨S1700000, .i32⟩
  | .hbm, ⟨14, _⟩ => ⟨S_, .f32⟩
  | .hbm, ⟨15, _⟩ => ⟨S100000, .f32⟩
  | .hbm, ⟨16, _⟩ => ⟨S1700000, .f32⟩
  | .hbm, ⟨17, _⟩ => ⟨S_, .f32⟩
  | .hbm, ⟨18, _⟩ => ⟨S100000, .f32⟩
  | .hbm, ⟨19, _⟩ => ⟨S1700000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S1700000, .i32⟩
  | .hbm, ⟨31, _⟩ => ⟨S1700000, .i1⟩
  | .hbm, ⟨32, _⟩ => ⟨S_, .i32⟩
  | .hbm, ⟨33, _⟩ => ⟨S1700000, .i32⟩
  | .hbm, ⟨34, _⟩ => ⟨S1700000, .i32⟩
  | .hbm, ⟨35, _⟩ => ⟨S1700000, .i32⟩
  | .hbm, ⟨36, _⟩ => ⟨S1700000x1, .i32⟩
  | .hbm, ⟨37, _⟩ => ⟨S1700000, .f32⟩
  | .hbm, ⟨38, _⟩ => ⟨S1700000, .f32⟩
  | .hbm, ⟨39, _⟩ => ⟨S_, .i32⟩
  | .hbm, ⟨40, _⟩ => ⟨S1700000, .i32⟩
  | .hbm, ⟨41, _⟩ => ⟨S1700000, .i1⟩
  | .hbm, ⟨42, _⟩ => ⟨S_, .i32⟩
  | .hbm, ⟨43, _⟩ => ⟨S1700000, .i32⟩
  | .hbm, ⟨44, _⟩ => ⟨S1700000, .i32⟩
  | .hbm, ⟨45, _⟩ => ⟨S1700000, .i32⟩
  | .hbm, ⟨46, _⟩ => ⟨S1700000x1, .i32⟩
  | .hbm, ⟨47, _⟩ => ⟨S1700000, .f32⟩
  | .hbm, ⟨48, _⟩ => ⟨S1700000, .f32⟩
  | .hbm, ⟨49, _⟩ => ⟨S100000x64, .f32⟩
  | .hbm, ⟨50, _⟩ => ⟨S1700000x1, .f32⟩
  | .hbm, ⟨51, _⟩ => ⟨S_, .i32⟩
  | .hbm, ⟨52, _⟩ => ⟨S1700000, .i32⟩
  | .hbm, ⟨53, _⟩ => ⟨S1700000, .i1⟩
  | .hbm, ⟨54, _⟩ => ⟨S_, .i32⟩
  | .hbm, ⟨55, _⟩ => ⟨S1700000, .i32⟩
  | .hbm, ⟨56, _⟩ => ⟨S1700000, .i32⟩
  | .hbm, ⟨57, _⟩ => ⟨S1700000, .i32⟩
  | .hbm, ⟨58, _⟩ => ⟨S1700000x1, .i32⟩
  | .hbm, ⟨59, _⟩ => ⟨S1700000x64, .f32⟩
  | .hbm, ⟨60, _⟩ => ⟨S1700000x64, .f32⟩
  | .hbm, ⟨61, _⟩ => ⟨S1700000x64, .f32⟩
  | .hbm, ⟨62, _⟩ => ⟨S_, .f32⟩
  | .hbm, ⟨63, _⟩ => ⟨S100000x64, .f32⟩
  | .hbm, ⟨64, _⟩ => ⟨S1700000x1, .i32⟩
  | .hbm, ⟨65, _⟩ => ⟨S100000x64, .f32⟩
  | .hbm, ⟨66, _⟩ => ⟨S1x64, .f32⟩
  | .hbm, ⟨67, _⟩ => ⟨S100000x64, .f32⟩
  | .hbm, ⟨68, _⟩ => ⟨S100000x40, .f32⟩
  | .hbm, ⟨69, _⟩ => ⟨S1700000x1, .f32⟩
  | .hbm, ⟨70, _⟩ => ⟨S_, .i32⟩
  | .hbm, ⟨71, _⟩ => ⟨S1700000, .i32⟩
  | .hbm, ⟨72, _⟩ => ⟨S1700000, .i1⟩
  | .hbm, ⟨73, _⟩ => ⟨S_, .i32⟩
  | .hbm, ⟨74, _⟩ => ⟨S1700000, .i32⟩
  | .hbm, ⟨75, _⟩ => ⟨S1700000, .i32⟩
  | .hbm, ⟨76, _⟩ => ⟨S1700000, .i32⟩
  | .hbm, ⟨77, _⟩ => ⟨S1700000x1, .i32⟩
  | .hbm, ⟨78, _⟩ => ⟨S1700000x40, .f32⟩
  | .hbm, ⟨79, _⟩ => ⟨S1700000x40, .f32⟩
  | .hbm, ⟨80, _⟩ => ⟨S1700000x40, .f32⟩
  | .hbm, ⟨81, _⟩ => ⟨S_, .f32⟩
  | .hbm, ⟨82, _⟩ => ⟨S100000x40, .f32⟩
  | .hbm, ⟨83, _⟩ => ⟨S1700000x1, .i32⟩
  | .hbm, ⟨84, _⟩ => ⟨S100000x40, .f32⟩
  | .hbm, ⟨85, _⟩ => ⟨S1x40, .f32⟩
  | .hbm, ⟨86, _⟩ => ⟨S100000x40, .f32⟩
  | .local _ .vmem, ⟨0, _⟩ => ⟨S5000x128, .f32⟩
  | .local _ .vmem, ⟨1, _⟩ => ⟨S5000x128, .f32⟩
  | .local _ .vmem, ⟨2, _⟩ => ⟨S128x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S1x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S64x40, .f32⟩
  | .local _ .vmem, ⟨13, _⟩ => ⟨S5000x40, .f32⟩
  | .local _ .vmem, ⟨14, _⟩ => ⟨S5000x40, .f32⟩
  | .local _ .vmem, ⟨15, _⟩ => ⟨S5000x40, .f32⟩
  | .local _ .vmem, ⟨16, _⟩ => ⟨S5000x40, .f32⟩
  | .local _ .vmem, ⟨17, _⟩ => ⟨S1x40, .f32⟩
  | .local _ .vmem, ⟨18, _⟩ => ⟨S5000x40, .f32⟩
  | .local _ .vmem, ⟨19, _⟩ => ⟨S5000x40, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v15 : Ref sig .tc := ⟨.hbm, 28, rfl⟩
abbrev main_c : Ref sig .tc := ⟨.hbm, 29, rfl⟩
abbrev main_v16 : Ref sig .tc := ⟨.hbm, 30, rfl⟩
abbrev main_v17 : Ref sig .tc := ⟨.hbm, 31, rfl⟩
abbrev main_c_3 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_4 : Ref sig .tc := ⟨.hbm, 39, rfl⟩
abbrev main_v24 : Ref sig .tc := ⟨.hbm, 40, rfl⟩
abbrev main_v25 : Ref sig .tc := ⟨.hbm, 41, rfl⟩
abbrev main_c_5 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_c_6 : Ref sig .tc := ⟨.hbm, 51, rfl⟩
abbrev main_v34 : Ref sig .tc := ⟨.hbm, 52, rfl⟩
abbrev main_v35 : Ref sig .tc := ⟨.hbm, 53, rfl⟩
abbrev main_c_7 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_8 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_c_9 : Ref sig .tc := ⟨.hbm, 70, rfl⟩
abbrev main_v50 : Ref sig .tc := ⟨.hbm, 71, rfl⟩
abbrev main_v51 : Ref sig .tc := ⟨.hbm, 72, rfl⟩
abbrev main_c_10 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_cst_11 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x40 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x40 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x40 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x40 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x40 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S1700000 : S_.BroadcastsInDim S1700000 (![] : Fin 0 → Fin S1700000.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x40_S64x40_0_0 : ∀ a, (![0, 0] : Fin 2 → Nat) a + S64x40.size a ≤ S64x40.size a
  h_S64x40 : 0 < S64x40.numel
  inb_S5000x40_S5000x40_0_0 : ∀ a, (![0, 0] : Fin 2 → Nat) a + S5000x40.size a ≤ S5000x40.size a
  h_S5000x40 : 0 < S5000x40.numel
  bcast_S1700000x1_S1700000x40_0_1 : S1700000x1.BroadcastsInDim S1700000x40 (![0, 1] : Fin 2 → Fin S1700000x40.rank)
  bcast_S_S100000x40 : S_.BroadcastsInDim S100000x40 (![] : Fin 0 → Fin S100000x40.rank)
  shapeCasts_S40_S1x40 : S40.ShapeCasts S1x40
  shapeCasts_S5000x40_S5000x40 : S5000x40.ShapeCasts S5000x40
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S5000x40 : S1x40.Broadcasts S5000x40
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x128_S128x64_S5000x64_1_0_0_1_n_n_wf : DotDims.WF S5000x128 S128x64 S5000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S5000x64_S64x40_S5000x40_1_0_0_1_n_n_wf : DotDims.WF S5000x64 S64x40 S5000x40 [1] [0] [0] [1] [] []
  gather_S100000x40_S1700000x1_S1700000x40_1_0_n_n_0_1_140_wf : GatherDims.WF S100000x40 S1700000x1 S1700000x40 [1] [0] [] [0] [] 1 ![1, 40]
  scatter_S100000x40_S1700000x1_S1700000x40_1_0_0_1_wf : ScatterDims.WF S100000x40 S1700000x1 S1700000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .f32 = 32 ∨ (Rect.block (s := S100000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S100000x64.size a
  hwx1_2 : ∀ i : grid1.Coords, EltTy.bits .f32 = 32 ∨ (Rect.block (s := S100000x64) S5000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x40.size a ≤ S64x40.size a
  hwx2_1 : ∀ i : grid2.Coords, EltTy.bits .f32 = 32 ∨ (Rect.block (s := S64x40) S64x40.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x40.size a ≤ S100000x40.size a
  hwx2_2 : ∀ i : grid2.Coords, EltTy.bits .f32 = 32 ∨ (Rect.block (s := S100000x40) S5000x40.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x40.size a ≤ S100000x40.size a
  hwx3_0 : ∀ i : grid3.Coords, EltTy.bits .f32 = 32 ∨ (Rect.block (s := S100000x40) S5000x40.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x40.size a ≤ S1x40.size a
  hwx3_1 : ∀ i : grid3.Coords, EltTy.bits .f32 = 32 ∨ (Rect.block (s := S1x40) S1x40.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x40.size a ≤ S100000x40.size a
  hwx3_2 : ∀ i : grid3.Coords, EltTy.bits .f32 = 32 ∨ (Rect.block (s := S100000x40) S5000x40.size (cc3_transform_2 i) (hinb3_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S5000x64_S64x40_S5000x40_1_0_0_1_n_n : DotDims S5000x64 S64x40 S5000x40 where
  lhsContracting := [1]
  rhsContracting := [0]
  lhsNonContracting := [0]
  rhsNonContracting := [1]
  lhsBatch := []
  rhsBatch := []
  wf := dot_S5000x64_S64x40_S5000x40_1_0_0_1_n_n_wf
def gather_S100000x40_S1700000x1_S1700000x40_1_0_n_n_0_1_140 : GatherDims S100000x40 S1700000x1 S1700000x40 where
  offsetDims := [1]
  collapsedSliceDims := [0]
  operandBatchingDims := []
  startIndicesBatchingDims := []
  startIndexMap := [0]
  indexVectorDim := 1
  sliceSizes := ![1, 40]
  wf := gather_S100000x40_S1700000x1_S1700000x40_1_0_n_n_0_1_140_wf
def scatter_S100000x40_S1700000x1_S1700000x40_1_0_0_1 : ScatterDims S100000x40 S1700000x1 S1700000x40 where
  updateWindowDims := [1]
  insertedWindowDims := [0]
  scatterDimsToOperandDims := [0]
  indexVectorDim := 1
  wf := scatter_S100000x40_S1700000x1_S1700000x40_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v47) S5000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v47) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S64x40.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v48) S5000x40.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v61) S5000x40.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v62) S1x40.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v63) S5000x40.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S1600000 : Shape := ⟨1, ![1600000]⟩
abbrev S128x64 : Shape := ⟨2, ![128, 64]⟩
abbrev S64 : Shape := ⟨1, ![64]⟩
abbrev S64x40 : Shape := ⟨2, ![64, 40]⟩
abbrev S40 : Shape := ⟨1, ![40]⟩
abbrev S100000 : Shape := ⟨1, ![100000]⟩
abbrev S1x1600000 : Shape := ⟨2, ![1, 1600000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S1700000x64 : Shape := ⟨2, ![1700000, 64]⟩
abbrev S1x64 : Shape := ⟨2, ![1, 64]⟩
abbrev S100000x40 : Shape := ⟨2, ![100000, 40]⟩
abbrev S1700000x40 : Shape := ⟨2, ![1700000, 40]⟩
abbrev S1x40 : Shape := ⟨2, ![1, 40]⟩

abbrev nBuf : Space → Nat
  | .hbm => 134
  | .vmem => 0
  | .smem => 0
  | _ => 0

abbrev hbmTy0_0 (i : Nat) : BufTy := match i % 128 with
  | 0 => ⟨S100000x128, .f32⟩
  | 1 => ⟨S2x1600000, .i32⟩
  | 2 => ⟨S1600000, .f32⟩
  | 3 => ⟨S128x64, .f32⟩
  | 4 => ⟨S64, .f32⟩
  | 5 => ⟨S64x40, .f32⟩
  | 6 => ⟨S40, .f32⟩
  | 7 => ⟨S100000, .i32⟩
  | 8 => ⟨S1x1600000, .i32⟩
  | 9 => ⟨S1600000, .i32⟩
  | 10 => ⟨S1700000, .i32⟩
  | 11 => ⟨S1x1600000, .i32⟩
  | 12 => ⟨S1600000, .i32⟩
  | 13 => ⟨S1700000, .i32⟩
  | 14 => ⟨S_, .f32⟩
  | 15 => ⟨S100000, .f32⟩
  | 16 => ⟨S1700000, .f32⟩
  | 17 => ⟨S_, .f32⟩
  | 18 => ⟨S100000, .f32⟩
  | 19 => ⟨S1700000x1, .i32⟩
  | 20 => ⟨S100000, .f32⟩
  | 21 => ⟨S_, .f32⟩
  | 22 => ⟨S100000, .f32⟩
  | 23 => ⟨S100000, .i1⟩
  | 24 => ⟨S100000, .f32⟩
  | 25 => ⟨S_, .f32⟩
  | 26 => ⟨S_, .f32⟩
  | 27 => ⟨S100000, .f32⟩
  | 28 => ⟨S100000, .f32⟩
  | 29 => ⟨S_, .i32⟩
  | 30 => ⟨S1700000, .i32⟩
  | 31 => ⟨S1700000, .i1⟩
  | 32 => ⟨S_, .i32⟩
  | 33 => ⟨S1700000, .i32⟩
  | 34 => ⟨S1700000, .i32⟩
  | 35 => ⟨S1700000, .i32⟩
  | 36 => ⟨S1700000x1, .i32⟩
  | 37 => ⟨S1700000, .f32⟩
  | 38 => ⟨S1700000, .f32⟩
  | 39 => ⟨S_, .i32⟩
  | 40 => ⟨S1700000, .i32⟩
  | 41 => ⟨S1700000, .i1⟩
  | 42 => ⟨S_, .i32⟩
  | 43 => ⟨S1700000, .i32⟩
  | 44 => ⟨S1700000, .i32⟩
  | 45 => ⟨S1700000, .i32⟩
  | 46 => ⟨S1700000x1, .i32⟩
  | 47 => ⟨S1700000, .f32⟩
  | 48 => ⟨S1700000, .f32⟩
  | 49 => ⟨S100000x64, .f32⟩
  | 50 => ⟨S1700000x1, .f32⟩
  | 51 => ⟨S_, .i32⟩
  | 52 => ⟨S1700000, .i32⟩
  | 53 => ⟨S1700000, .i1⟩
  | 54 => ⟨S_, .i32⟩
  | 55 => ⟨S1700000, .i32⟩
  | 56 => ⟨S1700000, .i32⟩
  | 57 => ⟨S1700000, .i32⟩
  | 58 => ⟨S1700000x1, .i32⟩
  | 59 => ⟨S1700000x64, .f32⟩
  | 60 => ⟨S1700000x64, .f32⟩
  | 61 => ⟨S1700000x64, .f32⟩
  | 62 => ⟨S_, .f32⟩
  | 63 => ⟨S100000x64, .f32⟩
  | 64 => ⟨S1700000x1, .i32⟩
  | 65 => ⟨S100000x64, .f32⟩
  | 66 => ⟨S1x64, .f32⟩
  | 67 => ⟨S100000x64, .f32⟩
  | 68 => ⟨S100000x64, .f32⟩
  | 69 => ⟨S_, .f32⟩
  | 70 => ⟨S100000x64, .f32⟩
  | 71 => ⟨S100000x64, .f32⟩
  | 72 => ⟨S100000, .i32⟩
  | 73 => ⟨S1x1600000, .i32⟩
  | 74 => ⟨S1600000, .i32⟩
  | 75 => ⟨S1700000, .i32⟩
  | 76 => ⟨S1x1600000, .i32⟩
  | 77 => ⟨S1600000, .i32⟩
  | 78 => ⟨S1700000, .i32⟩
  | 79 => ⟨S_, .f32⟩
  | 80 => ⟨S100000, .f32⟩
  | 81 => ⟨S1700000, .f32⟩
  | 82 => ⟨S_, .f32⟩
  | 83 => ⟨S100000, .f32⟩
  | 84 => ⟨S1700000x1, .i32⟩
  | 85 => ⟨S100000, .f32⟩
  | 86 => ⟨S_, .f32⟩
  | 87 => ⟨S100000, .f32⟩
  | 88 => ⟨S100000, .i1⟩
  | 89 => ⟨S100000, .f32⟩
  | 90 => ⟨S_, .f32⟩
  | 91 => ⟨S_, .f32⟩
  | 92 => ⟨S100000, .f32⟩
  | 93 => ⟨S100000, .f32⟩
  | 94 => ⟨S_, .i32⟩
  | 95 => ⟨S1700000, .i32⟩
  | 96 => ⟨S1700000, .i1⟩
  | 97 => ⟨S_, .i32⟩
  | 98 => ⟨S1700000, .i32⟩
  | 99 => ⟨S1700000, .i32⟩
  | 100 => ⟨S1700000, .i32⟩
  | 101 => ⟨S1700000x1, .i32⟩
  | 102 => ⟨S1700000, .f32⟩
  | 103 => ⟨S1700000, .f32⟩
  | 104 => ⟨S_, .i32⟩
  | 105 => ⟨S1700000, .i32⟩
  | 106 => ⟨S1700000, .i1⟩
  | 107 => ⟨S_, .i32⟩
  | 108 => ⟨S1700000, .i32⟩
  | 109 => ⟨S1700000, .i32⟩
  | 110 => ⟨S1700000, .i32⟩
  | 111 => ⟨S1700000x1, .i32⟩
  | 112 => ⟨S1700000, .f32⟩
  | 113 => ⟨S1700000, .f32⟩
  | 114 => ⟨S100000x40, .f32⟩
  | 115 => ⟨S1700000x1, .f32⟩
  | 116 => ⟨S_, .i32⟩
  | 117 => ⟨S1700000, .i32⟩
  | 118 => ⟨S1700000, .i1⟩
  | 119 => ⟨S_, .i32⟩
  | 120 => ⟨S1700000, .i32⟩
  | 121 => ⟨S1700000, .i32⟩
  | 122 => ⟨S1700000, .i32⟩
  | 123 => ⟨S1700000x1, .i32⟩
  | 124 => ⟨S1700000x40, .f32⟩
  | 125 => ⟨S1700000x40, .f32⟩
  | 126 => ⟨S1700000x40, .f32⟩
  | 127 => ⟨S_, .f32⟩
  | _ => ⟨S100000x128, .f32⟩

abbrev hbmTy0_1 (i : Nat) : BufTy := match i % 128 with
  | 0 => ⟨S100000x40, .f32⟩
  | 1 => ⟨S1700000x1, .i32⟩
  | 2 => ⟨S100000x40, .f32⟩
  | 3 => ⟨S1x40, .f32⟩
  | 4 => ⟨S100000x40, .f32⟩
  | 5 => ⟨S100000x40, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v15 : Ref sig .tc := ⟨.hbm, 28, rfl⟩
abbrev main_c : Ref sig .tc := ⟨.hbm, 29, rfl⟩
abbrev main_v16 : Ref sig .tc := ⟨.hbm, 30, rfl⟩
abbrev main_v17 : Ref sig .tc := ⟨.hbm, 31, rfl⟩
abbrev main_c_3 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_4 : Ref sig .tc := ⟨.hbm, 39, rfl⟩
abbrev main_v24 : Ref sig .tc := ⟨.hbm, 40, rfl⟩
abbrev main_v25 : Ref sig .tc := ⟨.hbm, 41, rfl⟩
abbrev main_c_5 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_c_6 : Ref sig .tc := ⟨.hbm, 51, rfl⟩
abbrev main_v34 : Ref sig .tc := ⟨.hbm, 52, rfl⟩
abbrev main_v35 : Ref sig .tc := ⟨.hbm, 53, rfl⟩
abbrev main_c_7 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_8 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_call1_cst : Ref sig .tc := ⟨.hbm, 69, rfl⟩
abbrev main_call1_v0 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_cst_9 : Ref sig .tc := ⟨.hbm, 79, rfl⟩
abbrev main_v57 : Ref sig .tc := ⟨.hbm, 80, rfl⟩
abbrev main_v58 : Ref sig .tc := ⟨.hbm, 81, rfl⟩
abbrev main_cst_10 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_cst_11 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_cst_12 : Ref sig .tc := ⟨.hbm, 90, rfl⟩
abbrev main_call2_v0 : Ref sig .tc := ⟨.hbm, 91, rfl⟩
abbrev main_call2_v1 : Ref sig .tc := ⟨.hbm, 92, rfl⟩
abbrev main_v65 : Ref sig .tc := ⟨.hbm, 93, rfl⟩
abbrev main_c_13 : Ref sig .tc := ⟨.hbm, 94, rfl⟩
abbrev main_v66 : Ref sig .tc := ⟨.hbm, 95, rfl⟩
abbrev main_v67 : Ref sig .tc := ⟨.hbm, 96, rfl⟩
abbrev main_c_14 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_c_15 : Ref sig .tc := ⟨.hbm, 104, rfl⟩
abbrev main_v74 : Ref sig .tc := ⟨.hbm, 105, rfl⟩
abbrev main_v75 : Ref sig .tc := ⟨.hbm, 106, rfl⟩
abbrev main_c_16 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_c_17 : Ref sig .tc := ⟨.hbm, 116, rfl⟩
abbrev main_v84 : Ref sig .tc := ⟨.hbm, 117, rfl⟩
abbrev main_v85 : Ref sig .tc := ⟨.hbm, 118, rfl⟩
abbrev main_c_18 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_cst_19 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S1700000 : S_.BroadcastsInDim S1700000 (![] : Fin 0 → Fin S1700000.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1700000x1_S1700000x40_0_1 : S1700000x1.BroadcastsInDim S1700000x40 (![0, 1] : Fin 2 → Fin S1700000x40.rank)
  bcast_S_S100000x40 : S_.BroadcastsInDim S100000x40 (![] : Fin 0 → Fin S100000x40.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x64_S100000x64_1_0_0_1_n_n_wf : DotDims.WF S100000x128 S128x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x40_S100000x40_1_0_0_1_n_n_wf : DotDims.WF S100000x64 S64x40 S100000x40 [1] [0] [0] [1] [] []
  gather_S100000x40_S1700000x1_S1700000x40_1_0_n_n_0_1_140_wf : GatherDims.WF S100000x40 S1700000x1 S1700000x40 [1] [0] [] [0] [] 1 ![1, 40]
  scatter_S100000x40_S1700000x1_S1700000x40_1_0_0_1_wf : ScatterDims.WF S100000x40 S1700000x1 S1700000x40 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x40_S100000x40_1_0_0_1_n_n : DotDims S100000x64 S64x40 S100000x40 where
  lhsContracting := [1]
  rhsContracting := [0]
  lhsNonContracting := [0]
  rhsNonContracting := [1]
  lhsBatch := []
  rhsBatch := []
  wf := dot_S100000x64_S64x40_S100000x40_1_0_0_1_n_n_wf
def gather_S100000x40_S1700000x1_S1700000x40_1_0_n_n_0_1_140 : GatherDims S100000x40 S1700000x1 S1700000x40 where
  offsetDims := [1]
  collapsedSliceDims := [0]
  operandBatchingDims := []
  startIndicesBatchingDims := []
  startIndexMap := [0]
  indexVectorDim := 1
  sliceSizes := ![1, 40]
  wf := gather_S100000x40_S1700000x1_S1700000x40_1_0_n_n_0_1_140_wf
def scatter_S100000x40_S1700000x1_S1700000x40_1_0_0_1 : ScatterDims S100000x40 S1700000x1 S1700000x40 where
  updateWindowDims := [1]
  insertedWindowDims := [0]
  scatterDimsToOperandDims := [0]
  indexVectorDim := 1
  wf := scatter_S100000x40_S1700000x1_S1700000x40_1_0_0_1_wf

class Facts : Prop extends Facts₀ where

variable [Facts]
-- ==== Proof.KernelRun.lean ====
/-
  The idealized kernel's run with its result named. The program is four pipelined regions among stretches of host
  operations; after the last region the result buffer holds what the fold of the segments' contents assigns it: the
  entry contents of each segment are the exit contents of the one before, a host stretch rewriting the buffers its
  operations write and a region rewriting its output array by its points' write-backs. Every weakly fair execution
  terminates there, and the argument arrays are as launched.
-/
import proofs.«150930_j58506044506615_1_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the result buffer then holds the last
    boundary's contents at it, and every argument array what it held at launch. -/
theorem run_named : θ_run defs (onTc (τ := τ) (main (F := F))) ⟨m, fun _ => 0, ρ⟩ (fun r => ∀ c : Dev nD,
      r.2.mem ((c.tc : Thread nD τ).loc main_v63) = W9 m ρ c (Proc.devRef .tc main_v63)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v63 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c)⟩)

end Cert.KernelIdeal.Named

end
-- ==== Proof.LibDot.lean ====
/-
  A plain matrix product read at an entry. For dimension numbers that contract the left operand's columns against the
  right operand's rows, with no batch axis, the contraction sum at row `a` and column `b` is the textbook
  sum over `k` of `l (a, k) * r (k, b)`, both for the accumulate-into-zero product of the matrix unit and for
  the host's general dot product, at the exact extended-real instance.
-/
import Idealize.ShloMosaic.Lib.ValueIdx
import Idealize.ShloMosaic.PureOps.Ideal.Laws

noncomputable section

open scoped BigOperators

namespace Cert.LibDot

open Idealize.ShloMosaic Idealize.ShloMosaic.ValueIdx

/-- The six axis lists of a rows-by-columns product. -/
structure IsPlain {M K N : Nat} (D : DotDims ⟨2, ![M, K]⟩ ⟨2, ![K, N]⟩ ⟨2, ![M, N]⟩) : Prop where
  lc : D.lhsContracting = [1]
  rc : D.rhsContracting = [0]
  ln : D.lhsNonContracting = [0]
  rn : D.rhsNonContracting = [1]
  lb : D.lhsBatch = []
  rb : D.rhsBatch = []

variable {M K N : Nat} (D : DotDims ⟨2, ![M, K]⟩ ⟨2, ![K, N]⟩ ⟨2, ![M, N]⟩) (hD : IsPlain D)

include hD in
theorem contr_rank : D.contr.rank = 1 := by rw [D.rank_contr, hD.lc]; rfl

include hD in
theorem contr_size : D.contr.size ⟨0, by rw [contr_rank D hD]; exact Nat.one_pos⟩ = K := by
  have h := D.size_contr 0 (by rw [hD.lc]; exact Nat.one_pos)
  rw [h]
  simp only [hD.lc]
  rfl

include hD in
/-- The left operand is read at row `a` of the result and at the contraction coordinate. -/
theorem lhs0 (j : (⟨2, ![M, N]⟩ : Shape).Idx) (q : D.contr.Idx) : (D.lhsIdx j q 0).val = (j 0).val := by
  unfold DotDims.lhsIdx
  rw [dif_neg (by rw [hD.lb]; exact List.not_mem_nil), dif_pos (by rw [hD.ln]; exact List.mem_singleton.mpr rfl)]
  simp only [Fin.val_cast]
  have key : ∀ (p p' : Nat) (hp : p < 2) (hp' : p' < 2), p = p' → (j ⟨p, hp⟩).val = (j ⟨p', hp'⟩).val :=
    fun p p' hp hp' h => by subst h; rfl
  exact key _ _ _ _ (by simp [hD.lb, hD.ln])

include hD in
theorem rhs1 (j : (⟨2, ![M, N]⟩ : Shape).Idx) (q : D.contr.Idx) : (D.rhsIdx j q 1).val = (j 1).val := by
  unfold DotDims.rhsIdx
  rw [dif_neg (by rw [hD.rb]; exact List.not_mem_nil), dif_pos (by rw [hD.rn]; exact List.mem_singleton.mpr rfl)]
  simp only [Fin.val_cast]
  have key : ∀ (p p' : Nat) (hp : p < 2) (hp' : p' < 2), p = p' → (j ⟨p, hp⟩).val = (j ⟨p', hp'⟩).val :=
    fun p p' hp hp' h => by subst h; rfl
  exact key _ _ _ _ (by simp [hD.lb, hD.ln, hD.rn])

include hD in
/-- The contraction sum at (a, b) is the sum over `k` of the row entry times the column entry. -/
theorem plain_sum (l : (⟨2, ![M, K]⟩ : Shape).Idx → EReal) (r : (⟨2, ![K, N]⟩ : Shape).Idx → EReal) (a : Fin M) (b : Fin N) :
    ∑ q : D.contr.Idx, l (D.lhsIdx (ix2 a b) q) * r (D.rhsIdx (ix2 a b) q) = ∑ k : Fin K, l (ix2 a k) * r (ix2 k b) := by
  rw [← Equiv.sum_comp (contrEquiv1 D K (contr_rank D hD) (contr_size D hD)).symm]
  refine Finset.sum_congr rfl fun k _ => ?_
  have hk := contrEquiv1_symm_val D K (contr_rank D hD) (contr_size D hD) k
  have el : D.lhsIdx (ix2 a b) ((contrEquiv1 D K (contr_rank D hD) (contr_size D hD)).symm k) = ix2 a k :=
    funext fun x => Fin.ext (by
      match x with
      | ⟨0, _⟩ => exact lhs0 D hD _ _
      | ⟨1, _⟩ => exact (D.lhsIdx_val_of_single hD.lc _ _).trans hk)
  have er : D.rhsIdx (ix2 a b) ((contrEquiv1 D K (contr_rank D hD) (contr_size D hD)).symm k) = ix2 k b :=
    funext fun x => Fin.ext (by
      match x with
      | ⟨0, _⟩ => exact (D.rhsIdx_val_of_single hD.rc _ _).trans hk
      | ⟨1, _⟩ => exact rhs1 D hD _ _)
  rw [el, er]

include hD in
/-- The matrix unit's product into a zero accumulator, at an entry. -/
theorem matmul_zero_apply {φ₁ φ₂ : FTy} (prec : Option ContractPrecision)
    (l : FVec Ideal ⟨2, ![M, K]⟩ φ₁) (r : FVec Ideal ⟨2, ![K, N]⟩ φ₂) (a : Fin M) (b : Fin N) :
    FloatOps.matmul D prec l r (constant ⟨2, ![M, N]⟩ .f32 0x00000000#32) (ix2 a b) = ∑ k : Fin K, l (ix2 a k) * r (ix2 k b) :=
  (Ideal.matmul_constant_zero_apply D prec l r (ix2 a b)).trans (plain_sum D hD l r a b)

include hD in
/-- The host's general dot product, at an entry. -/
theorem dotGeneral_apply {φ₁ φ₂ : FTy} (prec : Option ContractPrecision) (sched : HostSchedule)
    (l : FVec Ideal ⟨2, ![M, K]⟩ φ₁) (r : FVec Ideal ⟨2, ![K, N]⟩ φ₂) (a : Fin M) (b : Fin N) :
    FloatOps.dotGeneral D prec sched l r (ix2 a b) = ∑ k : Fin K, l (ix2 a k) * r (ix2 k b) :=
  (Ideal.dotGeneral_apply D prec sched l r (ix2 a b)).trans (plain_sum D hD l r a b)

end Cert.LibDot

end
-- ==== Proof.LibTileDot.lean ====
/-
  A matrix product computed tile by tile along the rows. An entry of a product depends on one row of the left factor
  and one column of the right factor, so if a tile's row agrees with a row of the whole left factor, and the tile's
  right factor agrees with the whole right factor along a column, then the tile's entry in that row and column
  is the whole product's entry. The tile's product is the matrix unit's product into a zero accumulator of operands
  narrowed to a shorter float format (the identity on extended reals); the whole product is the host's general dot
  product. Both are the textbook sum over the contracted coordinate.
-/
import proofs.«150930_j58506044506615_1_alg».proof.Proof.LibDot
import Idealize.ShloMosaic.Lib.ValueIdx
import Idealize.ShloMosaic.PureOps.Ideal.Laws

noncomputable section

open scoped BigOperators

namespace Cert.LibTileDot

open Idealize.ShloMosaic Idealize.ShloMosaic.ValueIdx

variable {B M K N : ℕ}

/-- Entry `j` of a row tile's product is entry `i` of the whole product when row `j 0` of the tile is row `i 0` of the
    whole left factor and column `j 1` of the tile's right factor is column `i 1` of the whole right factor. -/
theorem tile_entry (Dk : DotDims ⟨2, ![B, K]⟩ ⟨2, ![K, N]⟩ ⟨2, ![B, N]⟩) (hk : Cert.LibDot.IsPlain Dk)
    (D : DotDims ⟨2, ![M, K]⟩ ⟨2, ![K, N]⟩ ⟨2, ![M, N]⟩) (hD : Cert.LibDot.IsPlain D)
    (A : FVec Ideal ⟨2, ![M, K]⟩ .f32) (W : FVec Ideal ⟨2, ![K, N]⟩ .f32)
    (x0 : FVec Ideal ⟨2, ![B, K]⟩ .f32) (x1 : FVec Ideal ⟨2, ![K, N]⟩ .f32)
    (h0 : FTy.bf16.bits < FTy.f32.bits) (h1 : FTy.bf16.bits < FTy.f32.bits)
    (j : (⟨2, ![B, N]⟩ : Shape).Idx) (i : (⟨2, ![M, N]⟩ : Shape).Idx)
    (hrow : ∀ k : Fin K, x0 (ix2 (j 0) k) = A (ix2 (i 0) k))
    (hcol : ∀ k : Fin K, x1 (ix2 k (j 1)) = W (ix2 k (i 1))) :
    matmul Dk none (truncf .bf16 x0 h0) (truncf .bf16 x1 h1) (constant ⟨2, ![B, N]⟩ .f32 0x00000000#32) j
      = Host.dotGeneral D none A W i := by
  rw [eq_ix2 j, eq_ix2 i]
  refine (Cert.LibDot.matmul_zero_apply Dk hk none _ _ (j 0) (j 1)).trans ?_
  refine Eq.trans ?_ (Cert.LibDot.dotGeneral_apply D hD none _ A W (i 0) (i 1)).symm
  exact Finset.sum_congr rfl fun k _ => by
    show x0 (ix2 (j 0) k) * x1 (ix2 k (j 1)) = A (ix2 (i 0) k) * W (ix2 k (i 1))
    rw [hrow k, hcol k]

end Cert.LibTileDot

end
-- ==== Proof.Tiles0.lean ====
/-
  The first dense layer's product, block by block. The region runs 20 points; point t multiplies rows
  5000 t … 5000 t + 4999 of the left array by the whole right array and writes the product into the same rows of the
  output. An entry of a product depends on one row of the left factor and one column of the right factor, so the block a
  point writes is the same rows of the whole product; the 20 blocks tile the output, so the output array ends as the
  whole product of the two arrays as the region found them.
-/
import proofs.«150930_j58506044506615_1_alg».proof.Proof.Gen.KernelIdeal.Frame
import proofs.«150930_j58506044506615_1_alg».proof.Proof.LibTileDot
import Idealize.ShloMosaic.Lib.Pipeline.Value

set_option maxRecDepth 16384

noncomputable section

namespace Cert.KernelIdeal.Tiles

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The tile's dimension numbers are those of a plain rows-by-columns product. -/
theorem plain0 : Cert.LibDot.IsPlain dot_S5000x128_S128x64_S5000x64_1_0_0_1_n_n := ⟨rfl, rfl, rfl, rfl, rfl, rfl⟩

/-- Point t reads row block t of the left array and the whole right array, and writes row block t of the output. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is block t of the whole product. -/
theorem flushed0 (D : DotDims S100000x128 S128x64 S100000x64) (hD : Cert.LibDot.IsPlain D) (c : Dev nD) (t : Fin cfg0.N) :
    (dat0 V c).flushed 2 t = ((cfg0.win 2).blk t).view.read (Elt Ideal)
      (Host.dotGeneral (F := Ideal) (φ₁ := .f32) (φ₂ := .f32) D none (V c main_arg0) (V c main_arg3)) := by
  show (cfg0.win 2).cut (grid0.coords t) ((dat0 V c).after 2 t) = _
  rw [after0_2]
  unfold out0_2
  rw [View.canon_unit_zero hz]
  simp only [View.ld_unit_zero (S := S5000x128) hz, View.ld_unit_zero (S := S128x64) hz]
  obtain ⟨e0, e1, e2, e3, e4, e5⟩ := idx0 t
  funext j
  show k0_pay1 (iblk0 V c 0 t) (iblk0 V c 1 t) j
    = Host.dotGeneral (F := Ideal) (φ₁ := .f32) (φ₂ := .f32) D none (V c main_arg0) (V c main_arg3) (((cfg0.win 2).blk t).view.emb j)
  unfold k0_pay1
  refine Cert.LibTileDot.tile_entry dot_S5000x128_S128x64_S5000x64_1_0_0_1_n_n plain0 D hD (V c main_arg0) (V c main_arg3)
    (iblk0 V c 0 t) (iblk0 V c 1 t) bitsLt_bf16_f32 bitsLt_bf16_f32 j (((cfg0.win 2).blk t).view.emb j) ?_ ?_
  · intro k
    show V c main_arg0 (((cfg0.win 0).blk t).view.emb (ix2 (j 0) k)) = V c main_arg0 (ix2 ((((cfg0.win 2).blk t).view.emb j) 0) k)
    refine congrArg _ (funext fun a => Fin.ext ?_)
    match a with
    | ⟨0, _⟩ => show win0_0.index t (0 : Fin 2) * 5000 + 1 * (j 0).val = win0_2.index t (0 : Fin 2) * 5000 + 1 * (j 0).val; rw [e0, e4]
    | ⟨1, _⟩ => show win0_0.index t (1 : Fin 2) * 128 + 1 * k.val = k.val; rw [e1]; omega
  · intro k
    show V c main_arg3 (((cfg0.win 1).blk t).view.emb (ix2 k (j 1))) = V c main_arg3 (ix2 k ((((cfg0.win 2).blk t).view.emb j) 1))
    refine congrArg _ (funext fun a => Fin.ext ?_)
    match a with
    | ⟨0, _⟩ => show win0_1.index t (0 : Fin 2) * 128 + 1 * k.val = k.val; rw [e2]; omega
    | ⟨1, _⟩ => show win0_1.index t (1 : Fin 2) * 64 + 1 * (j 1).val = win0_2.index t (1 : Fin 2) * 64 + 1 * (j 1).val; rw [e3, e5]

/-- An index of the output is in point t's block iff each coordinate is in the block's range on its axis. -/
theorem mem_blk0 (t : Fin cfg0.N) (i : S100000x64.Idx) :
    i ∈ ((cfg0.win 2).blk t).view.set ↔ ∀ a : Fin 2, win0_2.index t a * S5000x64.size a ≤ (i a).val ∧ (i a).val < win0_2.index t a * S5000x64.size a + S5000x64.size a := by
  show i ∈ ((View.whole main_v32).slice (win0_2.rect t)).set ↔ _
  rw [View.set_slice_whole, Rect.mem_set_unit]
  exact Iff.rfl

/-- Every row of the output is in the block of the point its number divided by 5000 names. -/
theorem cover0 (i : S100000x64.Idx) : ∃ t : Fin cfg0.N, (cfg0.win 2).flush t = true ∧ i ∈ ((cfg0.win 2).blk t).view.set := by
  have hi0 : (i 0).val < 100000 := (i 0).isLt
  have hi1 : (i 1).val < 64 := (i 1).isLt
  have hN : cfg0.N = 20 := N_0
  refine ⟨⟨(i 0).val / 5000, by rw [hN]; omega⟩, flush0_2 _, ?_⟩
  rw [mem_blk0]
  obtain ⟨e0, e1, e2, e3, e4, e5⟩ := idx0 ⟨(i 0).val / 5000, by rw [hN]; omega⟩
  intro a
  match a with
  | ⟨0, _⟩ =>
    show win0_2.index _ (0 : Fin 2) * 5000 ≤ (i 0).val ∧ (i 0).val < win0_2.index _ (0 : Fin 2) * 5000 + 5000
    rw [e4]; show (i 0).val / 5000 * 5000 ≤ (i 0).val ∧ (i 0).val < (i 0).val / 5000 * 5000 + 5000; omega
  | ⟨1, _⟩ =>
    show win0_2.index _ (1 : Fin 2) * 64 ≤ (i 1).val ∧ (i 1).val < win0_2.index _ (1 : Fin 2) * 64 + 64
    rw [e5]; omega

/-- After the region the output array is the whole product of the two arrays as the region found them. -/
theorem array0 (D : DotDims S100000x128 S128x64 S100000x64) (hD : Cert.LibDot.IsPlain D) (c : Dev nD) :
    (dat0 V c).arrAt 2 cfg0.N = Host.dotGeneral (F := Ideal) (φ₁ := .f32) (φ₂ := .f32) D none (V c main_arg0) (V c main_arg3) :=
  (dat0 V c).arrAt_eq_of_cover 2 _ (fun t _ => flushed0 V D hD c t) cover0

end Cert.KernelIdeal.Tiles

end
-- ==== Proof.LibAddRow.lean ====
/-
  A bias row added to every row of an array. For an array A of M rows and N columns and a one-row array r, the sum has
  entry (p, q) equal to A (p, q) + r (0, q); followed by the maximum with zero it is the rectified sum. A tile of B rows
  computes its share of that sum: the tile's rows plus the same row r repeated B times. If a tile's entry is an entry
  of A and the tile's bias entry in that column is r's, the tile's result there is the whole array's. The tile's spelling
  casts both operands to their own shapes (the identity) and repeats the row by a vector broadcast.
-/
import Idealize.ShloMosaic.Lib.ValueIdx
import Idealize.ShloMosaic.Lib.ValueLayout
import Idealize.ShloMosaic.Lib.Pipeline.Value
import Idealize.ShloMosaic.PureOps.Ideal

noncomputable section

namespace Cert.LibAddRow

open Idealize.ShloMosaic Idealize.ShloMosaic.ValueIdx

variable {B M N : ℕ}

/-- Entry (p, q) of the sum: A (p, q) + r (0, q). -/
def addRow (A : FVec Ideal ⟨2, ![M, N]⟩ .f32) (r : FVec Ideal ⟨2, ![1, N]⟩ .f32) : FVec Ideal ⟨2, ![M, N]⟩ .f32 :=
  fun i => FloatOps.addf (A i) (r (ix2 (0 : Fin 1) (i 1)))

/-- Entry (p, q) of the rectified sum: max (A (p, q) + r (0, q), 0). -/
def reluRow (A : FVec Ideal ⟨2, ![M, N]⟩ .f32) (r : FVec Ideal ⟨2, ![1, N]⟩ .f32) : FVec Ideal ⟨2, ![M, N]⟩ .f32 :=
  fun i => FloatOps.maximumf (addRow A r i) (FloatOps.ofBits .f32 0x00000000#32)

/-- A one-row array repeated over B rows reads, at any row, the row's entry in that column. -/
theorem row_repeat (x1 : FVec Ideal ⟨2, ![1, N]⟩ .f32) (hb : (⟨2, ![1, N]⟩ : Shape).Broadcasts ⟨2, ![B, N]⟩)
    (j : (⟨2, ![B, N]⟩ : Shape).Idx) : broadcastTo ⟨2, ![B, N]⟩ x1 hb j = x1 (ix2 (0 : Fin 1) (j 1)) :=
  (congrArg (broadcastTo ⟨2, ![B, N]⟩ x1 hb) (eq_ix2 j)).trans (broadcastTo_1b_ab_apply x1 hb (j 0) (j 1))

/-- A tile's sum at an entry is the whole sum's entry, when the tile's entry and its bias entry are the whole arrays'. -/
theorem tile_addRow (x0 : FVec Ideal ⟨2, ![B, N]⟩ .f32) (x1 : FVec Ideal ⟨2, ![1, N]⟩ .f32)
    (A : FVec Ideal ⟨2, ![M, N]⟩ .f32) (r : FVec Ideal ⟨2, ![1, N]⟩ .f32)
    (h0 : (⟨2, ![B, N]⟩ : Shape).ShapeCasts ⟨2, ![B, N]⟩) (h1 : (⟨2, ![1, N]⟩ : Shape).ShapeCasts ⟨2, ![1, N]⟩)
    (hb : (⟨2, ![1, N]⟩ : Shape).Broadcasts ⟨2, ![B, N]⟩)
    (j : (⟨2, ![B, N]⟩ : Shape).Idx) (i : (⟨2, ![M, N]⟩ : Shape).Idx)
    (hrow : x0 j = A i) (hcol : x1 (ix2 (0 : Fin 1) (j 1)) = r (ix2 (0 : Fin 1) (i 1))) :
    addf (shapeCast ⟨2, ![B, N]⟩ x0 h0) (broadcastTo ⟨2, ![B, N]⟩ (shapeCast ⟨2, ![1, N]⟩ x1 h1) hb) j = addRow A r i := by
  rw [shapeCast_self, shapeCast_self]
  show FloatOps.addf (x0 j) (broadcastTo ⟨2, ![B, N]⟩ x1 hb j) = FloatOps.addf (A i) (r (ix2 (0 : Fin 1) (i 1)))
  rw [row_repeat x1 hb j, hrow, hcol]

/-- The same for the rectified sum, the zero spelt as a repeated scalar. -/
theorem tile_reluRow (x0 : FVec Ideal ⟨2, ![B, N]⟩ .f32) (x1 : FVec Ideal ⟨2, ![1, N]⟩ .f32)
    (A : FVec Ideal ⟨2, ![M, N]⟩ .f32) (r : FVec Ideal ⟨2, ![1, N]⟩ .f32)
    (h0 : (⟨2, ![B, N]⟩ : Shape).ShapeCasts ⟨2, ![B, N]⟩) (h1 : (⟨2, ![1, N]⟩ : Shape).ShapeCasts ⟨2, ![1, N]⟩)
    (hb : (⟨2, ![1, N]⟩ : Shape).Broadcasts ⟨2, ![B, N]⟩)
    (j : (⟨2, ![B, N]⟩ : Shape).Idx) (i : (⟨2, ![M, N]⟩ : Shape).Idx)
    (hrow : x0 j = A i) (hcol : x1 (ix2 (0 : Fin 1) (j 1)) = r (ix2 (0 : Fin 1) (i 1))) :
    maximumf (addf (shapeCast ⟨2, ![B, N]⟩ x0 h0) (broadcastTo ⟨2, ![B, N]⟩ (shapeCast ⟨2, ![1, N]⟩ x1 h1) hb))
      (broadcast ⟨2, ![B, N]⟩ (Scalar.ofBits (F := Ideal) .f32 0x00000000#32)) j = reluRow A r i := by
  show FloatOps.maximumf (addf (shapeCast ⟨2, ![B, N]⟩ x0 h0) (broadcastTo ⟨2, ![B, N]⟩ (shapeCast ⟨2, ![1, N]⟩ x1 h1) hb) j)
      (Scalar.ofBits (F := Ideal) .f32 0x00000000#32) = FloatOps.maximumf (addRow A r i) (FloatOps.ofBits .f32 0x00000000#32)
  rw [tile_addRow x0 x1 A r h0 h1 hb j i hrow hcol]

end Cert.LibAddRow

end
-- ==== Proof.Tiles1.lean ====
/-
  The first layer's bias and rectifier, block by block. Point t takes rows 5000 t … 5000 t + 4999 of the aggregated
  array, adds the one-row bias array to each row and takes the maximum with zero, and writes the same rows of the
  output. Each entry depends on the same entry of the aggregated array and on the bias entry in its column, so the block
  a point writes is the same rows of the rectified sum of the whole array; the 20 blocks tile the output.
-/
import proofs.«150930_j58506044506615_1_alg».proof.Proof.Gen.KernelIdeal.Frame
import proofs.«150930_j58506044506615_1_alg».proof.Proof.LibAddRow
import Idealize.ShloMosaic.Lib.Pipeline.Value

set_option maxRecDepth 16384

noncomputable section

namespace Cert.KernelIdeal.Tiles1

open Cert.KernelIdeal Cert.KernelIdeal.Gen
open Idealize.ShloMosaic Idealize.ShloMosaic.TcCoe Idealize.SL.Sem Idealize.ShloMosaic.ValueIdx
open Idealize.ShloMosaic.Pipeline (Dat)
open Cert.LibAddRow (reluRow)

variable (V : (c : Dev nD) → (b : Ref sig .tc) → Buf (Elt Ideal) ((c : Thread nD τ).loc b))

theorem hz : (![0, 0] : Fin 2 → Nat) = fun _ => 0 := funext fun a => by fin_cases a <;> rfl

/-- Point t reads row block t of the aggregated array and the whole bias row, and writes row block t of the output. -/
theorem idx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point t writes back is block t of the rectified sum of the whole array and the bias row. -/
theorem flushed1 (c : Dev nD) (t : Fin cfg1.N) :
    (dat1 V c).flushed 2 t = ((cfg1.win 2).blk t).view.read (Elt Ideal)
      (reluRow (M := 100000) (N := 64) (V c main_v45) (V c main_v46)) := by
  show (cfg1.win 2).cut (grid1.coords t) ((dat1 V c).after 2 t) = _
  rw [after1_2]
  unfold out1_2
  rw [View.canon_unit_zero hz]
  simp only [View.ld_unit_zero (S := S5000x64) hz, View.ld_unit_zero (S := S1x64) hz]
  obtain ⟨e0, e1, e2, e3, e4, e5⟩ := idx1 t
  funext j
  show k1_pay1 (iblk1 V c 0 t) (iblk1 V c 1 t) j
    = reluRow (M := 100000) (N := 64) (V c main_v45) (V c main_v46) (((cfg1.win 2).blk t).view.emb j)
  unfold k1_pay1
  refine Cert.LibAddRow.tile_reluRow (B := 5000) (M := 100000) (N := 64) (iblk1 V c 0 t) (iblk1 V c 1 t) (V c main_v45) (V c main_v46)
    shapeCasts_S5000x64_S5000x64 shapeCasts_S1x64_S1x64 broadcasts_S1x64_S5000x64 j (((cfg1.win 2).blk t).view.emb j) ?_ ?_
  · show V c main_v45 (((cfg1.win 0).blk t).view.emb j) = V c main_v45 (((cfg1.win 2).blk t).view.emb j)
    refine congrArg _ (funext fun a => Fin.ext ?_)
    match a with
    | ⟨0, _⟩ => show win1_0.index t (0 : Fin 2) * 5000 + 1 * (j 0).val = win1_2.index t (0 : Fin 2) * 5000 + 1 * (j 0).val; rw [e0, e4]
    | ⟨1, _⟩ => show win1_0.index t (1 : Fin 2) * 64 + 1 * (j 1).val = win1_2.index t (1 : Fin 2) * 64 + 1 * (j 1).val; rw [e1, e5]
  · show V c main_v46 (((cfg1.win 1).blk t).view.emb (ix2 (0 : Fin 1) (j 1)))
      = V c main_v46 (ix2 (0 : Fin 1) ((((cfg1.win 2).blk t).view.emb j) 1))
    refine congrArg _ (funext fun a => Fin.ext ?_)
    match a with
    | ⟨0, _⟩ => show win1_1.index t (0 : Fin 2) * 1 + 1 * 0 = 0; rw [e2]
    | ⟨1, _⟩ => show win1_1.index t (1 : Fin 2) * 64 + 1 * (j 1).val = win1_2.index t (1 : Fin 2) * 64 + 1 * (j 1).val; rw [e3, e5]

/-- An index of the output is in point t's block iff each coordinate is in the block's range on its axis. -/
theorem mem_blk1 (t : Fin cfg1.N) (i : S100000x64.Idx) :
    i ∈ ((cfg1.win 2).blk t).view.set ↔ ∀ a : Fin 2, win1_2.index t a * S5000x64.size a ≤ (i a).val ∧ (i a).val < win1_2.index t a * S5000x64.size a + S5000x64.size a := by
  show i ∈ ((View.whole main_v47).slice (win1_2.rect t)).set ↔ _
  rw [View.set_slice_whole, Rect.mem_set_unit]
  exact Iff.rfl

/-- Every row of the output is in the block of the point its number divided by 5000 names. -/
theorem cover1 (i : S100000x64.Idx) : ∃ t : Fin cfg1.N, (cfg1.win 2).flush t = true ∧ i ∈ ((cfg1.win 2).blk t).view.set := by
  have hi0 : (i 0).val < 100000 := (i 0).isLt
  have hi1 : (i 1).val < 64 := (i 1).isLt
  have hN : cfg1.N = 20 := N_1
  refine ⟨⟨(i 0).val / 5000, by rw [hN]; omega⟩, flush1_2 _, ?_⟩
  rw [mem_blk1]
  obtain ⟨e0, e1, e2, e3, e4, e5⟩ := idx1 ⟨(i 0).val / 5000, by rw [hN]; omega⟩
  intro a
  match a with
  | ⟨0, _⟩ =>
    show win1_2.index _ (0 : Fin 2) * 5000 ≤ (i 0).val ∧ (i 0).val < win1_2.index _ (0 : Fin 2) * 5000 + 5000
    rw [e4]; show (i 0).val / 5000 * 5000 ≤ (i 0).val ∧ (i 0).val < (i 0).val / 5000 * 5000 + 5000; omega
  | ⟨1, _⟩ =>
    show win1_2.index _ (1 : Fin 2) * 64 ≤ (i 1).val ∧ (i 1).val < win1_2.index _ (1 : Fin 2) * 64 + 64
    rw [e5]; omega

/-- After the region the output array is the rectified sum of the aggregated array and the bias row as the region found them. -/
theorem array1 (c : Dev nD) :
    (dat1 V c).arrAt 2 cfg1.N = reluRow (M := 100000) (N := 64) (V c main_v45) (V c main_v46) :=
  (dat1 V c).arrAt_eq_of_cover 2 _ (fun t _ => flushed1 V c t) cover1

end Cert.KernelIdeal.Tiles1

end
-- ==== Proof.Tiles2.lean ====
/-
  The second dense layer's product, block by block: as for the first layer, point t multiplies rows
  5000 t … 5000 t + 4999 of the hidden array by the whole 64-by-40 weight array and writes the same rows of the output;
  the blocks tile the output, so the output array ends as the whole product of the two arrays as the region found them.
  (The body first casts its row block to its own shape, which changes nothing.)
-/
import proofs.«150930_j58506044506615_1_alg».proof.Proof.Gen.KernelIdeal.Frame
import proofs.«150930_j58506044506615_1_alg».proof.Proof.LibTileDot
import Idealize.ShloMosaic.Lib.Pipeline.Value

set_option maxRecDepth 16384

noncomputable section

namespace Cert.KernelIdeal.Tiles2

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The tile's dimension numbers are those of a plain rows-by-columns product. -/
theorem plain2 : Cert.LibDot.IsPlain dot_S5000x64_S64x40_S5000x40_1_0_0_1_n_n := ⟨rfl, rfl, rfl, rfl, rfl, rfl⟩

/-- Point t reads row block t of the left array and the whole right array, and writes row block t of the output. -/
theorem idx2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The body's product is the matrix unit's product into zero of its two narrowed blocks. -/
theorem pay2 (x0 : Vec Ideal S5000x64 .f32) (x1 : Vec Ideal S64x40 .f32) :
    k2_pay1 x0 x1 = matmul dot_S5000x64_S64x40_S5000x40_1_0_0_1_n_n none (truncf .bf16 x0 bitsLt_bf16_f32)
      (truncf .bf16 x1 bitsLt_bf16_f32) (constant S5000x40 .f32 0x00000000#32) := by
  unfold k2_pay1
  rw [shapeCast_self]

/-- What point t writes back is block t of the whole product. -/
theorem flushed2 (D : DotDims S100000x64 S64x40 S100000x40) (hD : Cert.LibDot.IsPlain D) (c : Dev nD) (t : Fin cfg2.N) :
    (dat2 V c).flushed 2 t = ((cfg2.win 2).blk t).view.read (Elt Ideal)
      (Host.dotGeneral (F := Ideal) (φ₁ := .f32) (φ₂ := .f32) D none (V c main_v47) (V c main_arg5)) := by
  show (cfg2.win 2).cut (grid2.coords t) ((dat2 V c).after 2 t) = _
  rw [after2_2]
  unfold out2_2
  rw [View.canon_unit_zero hz]
  simp only [View.ld_unit_zero (S := S5000x64) hz, View.ld_unit_zero (S := S64x40) hz]
  obtain ⟨e0, e1, e2, e3, e4, e5⟩ := idx2 t
  funext j
  show k2_pay1 (iblk2 V c 0 t) (iblk2 V c 1 t) j
    = Host.dotGeneral (F := Ideal) (φ₁ := .f32) (φ₂ := .f32) D none (V c main_v47) (V c main_arg5) (((cfg2.win 2).blk t).view.emb j)
  rw [pay2]
  refine Cert.LibTileDot.tile_entry dot_S5000x64_S64x40_S5000x40_1_0_0_1_n_n plain2 D hD (V c main_v47) (V c main_arg5)
    (iblk2 V c 0 t) (iblk2 V c 1 t) bitsLt_bf16_f32 bitsLt_bf16_f32 j (((cfg2.win 2).blk t).view.emb j) ?_ ?_
  · intro k
    show V c main_v47 (((cfg2.win 0).blk t).view.emb (ix2 (j 0) k)) = V c main_v47 (ix2 ((((cfg2.win 2).blk t).view.emb j) 0) k)
    refine congrArg _ (funext fun a => Fin.ext ?_)
    match a with
    | ⟨0, _⟩ => show win2_0.index t (0 : Fin 2) * 5000 + 1 * (j 0).val = win2_2.index t (0 : Fin 2) * 5000 + 1 * (j 0).val; rw [e0, e4]
    | ⟨1, _⟩ => show win2_0.index t (1 : Fin 2) * 64 + 1 * k.val = k.val; rw [e1]; omega
  · intro k
    show V c main_arg5 (((cfg2.win 1).blk t).view.emb (ix2 k (j 1))) = V c main_arg5 (ix2 k ((((cfg2.win 2).blk t).view.emb j) 1))
    refine congrArg _ (funext fun a => Fin.ext ?_)
    match a with
    | ⟨0, _⟩ => show win2_1.index t (0 : Fin 2) * 64 + 1 * k.val = k.val; rw [e2]; omega
    | ⟨1, _⟩ => show win2_1.index t (1 : Fin 2) * 40 + 1 * (j 1).val = win2_2.index t (1 : Fin 2) * 40 + 1 * (j 1).val; rw [e3, e5]

/-- An index of the output is in point t's block iff each coordinate is in the block's range on its axis. -/
theorem mem_blk2 (t : Fin cfg2.N) (i : S100000x40.Idx) :
    i ∈ ((cfg2.win 2).blk t).view.set ↔ ∀ a : Fin 2, win2_2.index t a * S5000x40.size a ≤ (i a).val ∧ (i a).val < win2_2.index t a * S5000x40.size a + S5000x40.size a := by
  show i ∈ ((View.whole main_v48).slice (win2_2.rect t)).set ↔ _
  rw [View.set_slice_whole, Rect.mem_set_unit]
  exact Iff.rfl

/-- Every row of the output is in the block of the point its number divided by 5000 names. -/
theorem cover2 (i : S100000x40.Idx) : ∃ t : Fin cfg2.N, (cfg2.win 2).flush t = true ∧ i ∈ ((cfg2.win 2).blk t).view.set := by
  have hi0 : (i 0).val < 100000 := (i 0).isLt
  have hi1 : (i 1).val < 40 := (i 1).isLt
  have hN : cfg2.N = 20 := N_2
  refine ⟨⟨(i 0).val / 5000, by rw [hN]; omega⟩, flush2_2 _, ?_⟩
  rw [mem_blk2]
  obtain ⟨e0, e1, e2, e3, e4, e5⟩ := idx2 ⟨(i 0).val / 5000, by rw [hN]; omega⟩
  intro a
  match a with
  | ⟨0, _⟩ =>
    show win2_2.index _ (0 : Fin 2) * 5000 ≤ (i 0).val ∧ (i 0).val < win2_2.index _ (0 : Fin 2) * 5000 + 5000
    rw [e4]; show (i 0).val / 5000 * 5000 ≤ (i 0).val ∧ (i 0).val < (i 0).val / 5000 * 5000 + 5000; omega
  | ⟨1, _⟩ =>
    show win2_2.index _ (1 : Fin 2) * 40 ≤ (i 1).val ∧ (i 1).val < win2_2.index _ (1 : Fin 2) * 40 + 40
    rw [e5]; omega

/-- After the region the output array is the whole product of the two arrays as the region found them. -/
theorem array2 (D : DotDims S100000x64 S64x40 S100000x40) (hD : Cert.LibDot.IsPlain D) (c : Dev nD) :
    (dat2 V c).arrAt 2 cfg2.N = Host.dotGeneral (F := Ideal) (φ₁ := .f32) (φ₂ := .f32) D none (V c main_v47) (V c main_arg5) :=
  (dat2 V c).arrAt_eq_of_cover 2 _ (fun t _ => flushed2 V D hD c t) cover2

end Cert.KernelIdeal.Tiles2

end
-- ==== Proof.Tiles3.lean ====
/-
  The second layer's bias, block by block. Point t takes rows 5000 t … 5000 t + 4999 of the aggregated array, adds the
  one-row bias array to each row, and writes the same rows of the output. Each entry depends on the same entry of the
  aggregated array and on the bias entry in its column, so the block a point writes is the same rows of the sum of the
  whole array and the bias row; the 20 blocks tile the output.
-/
import proofs.«150930_j58506044506615_1_alg».proof.Proof.Gen.KernelIdeal.Frame
import proofs.«150930_j58506044506615_1_alg».proof.Proof.LibAddRow
import Idealize.ShloMosaic.Lib.Pipeline.Value

set_option maxRecDepth 16384

noncomputable section

namespace Cert.KernelIdeal.Tiles3

open Cert.KernelIdeal Cert.KernelIdeal.Gen
open Idealize.ShloMosaic Idealize.ShloMosaic.TcCoe Idealize.SL.Sem Idealize.ShloMosaic.ValueIdx
open Idealize.ShloMosaic.Pipeline (Dat)
open Cert.LibAddRow (addRow)

variable (V : (c : Dev nD) → (b : Ref sig .tc) → Buf (Elt Ideal) ((c : Thread nD τ).loc b))

theorem hz : (![0, 0] : Fin 2 → Nat) = fun _ => 0 := funext fun a => by fin_cases a <;> rfl

/-- Point t reads row block t of the aggregated array and the whole bias row, and writes row block t of the output. -/
theorem idx3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- What point t writes back is block t of the sum of the whole array and the bias row. -/
theorem flushed3 (c : Dev nD) (t : Fin cfg3.N) :
    (dat3 V c).flushed 2 t = ((cfg3.win 2).blk t).view.read (Elt Ideal)
      (addRow (M := 100000) (N := 40) (V c main_v61) (V c main_v62)) := by
  show (cfg3.win 2).cut (grid3.coords t) ((dat3 V c).after 2 t) = _
  rw [after3_2]
  unfold out3_2
  rw [View.canon_unit_zero hz]
  simp only [View.ld_unit_zero (S := S5000x40) hz, View.ld_unit_zero (S := S1x40) hz]
  obtain ⟨e0, e1, e2, e3, e4, e5⟩ := idx3 t
  funext j
  show k3_pay1 (iblk3 V c 0 t) (iblk3 V c 1 t) j
    = addRow (M := 100000) (N := 40) (V c main_v61) (V c main_v62) (((cfg3.win 2).blk t).view.emb j)
  unfold k3_pay1
  refine Cert.LibAddRow.tile_addRow (B := 5000) (M := 100000) (N := 40) (iblk3 V c 0 t) (iblk3 V c 1 t) (V c main_v61) (V c main_v62)
    shapeCasts_S5000x40_S5000x40 shapeCasts_S1x40_S1x40 broadcasts_S1x40_S5000x40 j (((cfg3.win 2).blk t).view.emb j) ?_ ?_
  · show V c main_v61 (((cfg3.win 0).blk t).view.emb j) = V c main_v61 (((cfg3.win 2).blk t).view.emb j)
    refine congrArg _ (funext fun a => Fin.ext ?_)
    match a with
    | ⟨0, _⟩ => show win3_0.index t (0 : Fin 2) * 5000 + 1 * (j 0).val = win3_2.index t (0 : Fin 2) * 5000 + 1 * (j 0).val; rw [e0, e4]
    | ⟨1, _⟩ => show win3_0.index t (1 : Fin 2) * 40 + 1 * (j 1).val = win3_2.index t (1 : Fin 2) * 40 + 1 * (j 1).val; rw [e1, e5]
  · show V c main_v62 (((cfg3.win 1).blk t).view.emb (ix2 (0 : Fin 1) (j 1)))
      = V c main_v62 (ix2 (0 : Fin 1) ((((cfg3.win 2).blk t).view.emb j) 1))
    refine congrArg _ (funext fun a => Fin.ext ?_)
    match a with
    | ⟨0, _⟩ => show win3_1.index t (0 : Fin 2) * 1 + 1 * 0 = 0; rw [e2]
    | ⟨1, _⟩ => show win3_1.index t (1 : Fin 2) * 40 + 1 * (j 1).val = win3_2.index t (1 : Fin 2) * 40 + 1 * (j 1).val; rw [e3, e5]

/-- An index of the output is in point t's block iff each coordinate is in the block's range on its axis. -/
theorem mem_blk3 (t : Fin cfg3.N) (i : S100000x40.Idx) :
    i ∈ ((cfg3.win 2).blk t).view.set ↔ ∀ a : Fin 2, win3_2.index t a * S5000x40.size a ≤ (i a).val ∧ (i a).val < win3_2.index t a * S5000x40.size a + S5000x40.size a := by
  show i ∈ ((View.whole main_v63).slice (win3_2.rect t)).set ↔ _
  rw [View.set_slice_whole, Rect.mem_set_unit]
  exact Iff.rfl

/-- Every row of the output is in the block of the point its number divided by 5000 names. -/
theorem cover3 (i : S100000x40.Idx) : ∃ t : Fin cfg3.N, (cfg3.win 2).flush t = true ∧ i ∈ ((cfg3.win 2).blk t).view.set := by
  have hi0 : (i 0).val < 100000 := (i 0).isLt
  have hi1 : (i 1).val < 40 := (i 1).isLt
  have hN : cfg3.N = 20 := N_3
  refine ⟨⟨(i 0).val / 5000, by rw [hN]; omega⟩, flush3_2 _, ?_⟩
  rw [mem_blk3]
  obtain ⟨e0, e1, e2, e3, e4, e5⟩ := idx3 ⟨(i 0).val / 5000, by rw [hN]; omega⟩
  intro a
  match a with
  | ⟨0, _⟩ =>
    show win3_2.index _ (0 : Fin 2) * 5000 ≤ (i 0).val ∧ (i 0).val < win3_2.index _ (0 : Fin 2) * 5000 + 5000
    rw [e4]; show (i 0).val / 5000 * 5000 ≤ (i 0).val ∧ (i 0).val < (i 0).val / 5000 * 5000 + 5000; omega
  | ⟨1, _⟩ =>
    show win3_2.index _ (1 : Fin 2) * 40 ≤ (i 1).val ∧ (i 1).val < win3_2.index _ (1 : Fin 2) * 40 + 40
    rw [e5]; omega

/-- After the region the output array is the sum of the aggregated array and the bias row as the region found them. -/
theorem array3 (c : Dev nD) :
    (dat3 V c).arrAt 2 cfg3.N = addRow (M := 100000) (N := 40) (V c main_v61) (V c main_v62) :=
  (dat3 V c).arrAt_eq_of_cover 2 _ (fun t _ => flushed3 V c t) cover3

end Cert.KernelIdeal.Tiles3

end
-- ==== Proof.LibCallBuf.lean ====
/-
  A value handed to a called function's typed buffer and read back from it is the value: the two transports along the
  buffer's type equation cancel.
-/
import Idealize.ShloMosaic.Lib.StableHlo

noncomputable section

namespace Cert.LibCallBuf

open Idealize.ShloMosaic Idealize.ShloMosaic.StableHlo

/-- Written into a typed reference's buffer and read back, contents are unchanged. -/
theorem ofBuf_toBuf {sig : RefSig} {Val : EltTy → Type} {T : BufTy} (x : TRef sig T) (v : T.Contents Val) :
    x.ofBuf (x.toBuf v) = v := by
  show cast _ (cast _ v) = v
  rw [cast_cast]
  exact cast_eq _ _

end Cert.LibCallBuf

end
-- ==== Proof.HostK.lean ====
/-
  The host operations of the idealized kernel between its regions, read as functions of the buffers they start from.
  Before the first region they build, from the edge list and the edge weights, the source and target node of every edge
  (self-loops appended), and the symmetric normalisation weight of every edge. Between the regions they aggregate: row v
  of the aggregated array is the sum, over the edges whose target is v, of the edge's weight times the row of the
  source node (a gather of rows, a scaling, an accumulating scatter into zero), and they lay a bias vector out as a one-row array.
  Each statement is over any contents V of the buffers when the stretch starts.
-/
import proofs.«150930_j58506044506615_1_alg».proof.Proof.Gen.KernelIdeal.Launch
import proofs.«150930_j58506044506615_1_alg».proof.Proof.LibCallBuf
import Idealize.ShloMosaic.Lib.StableHlo.Run
import Idealize.ShloMosaic.PureOps.Ideal

set_option maxRecDepth 16384

noncomputable section

namespace Cert.KernelIdeal.HostK

open Cert.KernelIdeal Cert.KernelIdeal.Gen
open Idealize.ShloMosaic Idealize.ShloMosaic.TcCoe Idealize.ShloMosaic.StableHlo

/-- A node index that may be negative, counted from the end when it is. -/
def wrapIdx (r : (⟨S1700000, .i32⟩ : BufTy).Contents (Elt Ideal)) : (⟨S1700000, .i32⟩ : BufTy).Contents (Elt Ideal) :=
  select (cmpi .slt r (broadcastInDim S1700000 ![] bcast_S_S1700000 (constantI S_ 32 0#32)))
    (addi r (broadcastInDim S1700000 ![] bcast_S_S1700000 (constantI S_ 32 100000#32))) r

/-- The aggregation of a 64-column array h over the edges: row v is the sum over the edges with target v of the
    edge's weight times row (source of the edge) of h. -/
def agg64 (nrm : (⟨S1700000, .f32⟩ : BufTy).Contents (Elt Ideal)) (row col : (⟨S1700000, .i32⟩ : BufTy).Contents (Elt Ideal))
    (h : (⟨S100000x64, .f32⟩ : BufTy).Contents (Elt Ideal)) : (⟨S100000x64, .f32⟩ : BufTy).Contents (Elt Ideal) :=
  Host.scatterAdd (F := Ideal) scatter_S100000x64_S1700000x1_S1700000x64_1_0_0_1
    (broadcastInDim S100000x64 ![] bcast_S_S100000x64 (constant (F := Ideal) S_ .f32 0x00000000#32))
    (broadcastInDim S1700000x1 ![0] bcast_S1700000_S1700000x1_0 col)
    (mulf (broadcastInDim S1700000x64 ![0, 1] bcast_S1700000x1_S1700000x64_0_1
        (broadcastInDim S1700000x1 ![0] bcast_S1700000_S1700000x1_0 nrm))
      (Host.gather gather_S100000x64_S1700000x1_S1700000x64_1_0_n_n_0_1_164 h
        (broadcastInDim S1700000x1 ![0] bcast_S1700000_S1700000x1_0 (wrapIdx row))))

/-- The same aggregation of a 40-column array. -/
def agg40 (nrm : (⟨S1700000, .f32⟩ : BufTy).Contents (Elt Ideal)) (row col : (⟨S1700000, .i32⟩ : BufTy).Contents (Elt Ideal))
    (h : (⟨S100000x40, .f32⟩ : BufTy).Contents (Elt Ideal)) : (⟨S100000x40, .f32⟩ : BufTy).Contents (Elt Ideal) :=
  Host.scatterAdd (F := Ideal) scatter_S100000x40_S1700000x1_S1700000x40_1_0_0_1
    (broadcastInDim S100000x40 ![] bcast_S_S100000x40 (constant (F := Ideal) S_ .f32 0x00000000#32))
    (broadcastInDim S1700000x1 ![0] bcast_S1700000_S1700000x1_0 col)
    (mulf (broadcastInDim S1700000x40 ![0, 1] bcast_S1700000x1_S1700000x40_0_1
        (broadcastInDim S1700000x1 ![0] bcast_S1700000_S1700000x1_0 nrm))
      (Host.gather gather_S100000x40_S1700000x1_S1700000x40_1_0_n_n_0_1_140 h
        (broadcastInDim S1700000x1 ![0] bcast_S1700000_S1700000x1_0 (wrapIdx row))))

variable (V : Valuation τ sig (Elt Ideal))

/-! ## The stretch before the second region -/

theorem mid1_agg : after hostOps1 V (Proc.devRef .tc main_v45)
    = agg64 (V (Proc.devRef .tc main_v31)) (V (Proc.devRef .tc main_v3)) (V (Proc.devRef .tc main_v6)) (V (Proc.devRef .tc main_v32)) := by
  dsimp only [hostOps1]
  after_results_simp
  rfl

theorem mid1_bias : after hostOps1 V (Proc.devRef .tc main_v46)
    = shapeCast S1x64 (V (Proc.devRef .tc main_arg4)) shapeCasts_S64_S1x64 := by
  dsimp only [hostOps1]
  after_results
  rfl

theorem mid1_keep : after hostOps1 V (Proc.devRef .tc main_v31) = V (Proc.devRef .tc main_v31)
    ∧ after hostOps1 V (Proc.devRef .tc main_v3) = V (Proc.devRef .tc main_v3)
    ∧ after hostOps1 V (Proc.devRef .tc main_v6) = V (Proc.devRef .tc main_v6)
    ∧ after hostOps1 V (Proc.devRef .tc main_arg5) = V (Proc.devRef .tc main_arg5)
    ∧ after hostOps1 V (Proc.devRef .tc main_arg6) = V (Proc.devRef .tc main_arg6) := by
  dsimp only [hostOps1]
  refine ⟨?_, ?_, ?_, ?_, ?_⟩ <;> after_results

/-! ## The stretch before the last region -/

theorem mid3_agg : after hostOps3 V (Proc.devRef .tc main_v61)
    = agg40 (V (Proc.devRef .tc main_v31)) (V (Proc.devRef .tc main_v3)) (V (Proc.devRef .tc main_v6)) (V (Proc.devRef .tc main_v48)) := by
  dsimp only [hostOps3]
  after_results_simp
  rfl

theorem mid3_bias : after hostOps3 V (Proc.devRef .tc main_v62)
    = shapeCast S1x40 (V (Proc.devRef .tc main_arg6)) shapeCasts_S40_S1x40 := by
  dsimp only [hostOps3]
  after_results
  rfl

end Cert.KernelIdeal.HostK

end
-- ==== Proof.LibConcat.lean ====
/-
  Host operations are determined by their operands: equal operands give equal results. Stated for a concatenation of
  two pieces (the pieces sit in a list of (shape, contents) pairs, the contents' type depending on the shape), for a
  gather, for an accumulating scatter and for a lane-wise select.
-/
import Idealize.ShloMosaic.PureOps.ShapeOps
import Idealize.ShloMosaic.PureOps.Contract
import Idealize.ShloMosaic.PureOps.Ideal

noncomputable section

namespace Cert.LibConcat

open Idealize.ShloMosaic

/-- Two pieces joined along an axis: congruent in each piece. -/
@[congr] theorem concatenate_pair_congr {α : Type} {t : Shape} {ax : Fin t.rank} {S1 S2 : Shape}
    {a a' : S1.Idx → α} {b b' : S2.Idx → α} {h : Shape.Concatenates [S1, S2] t ax}
    (ha : a = a') (hb : b = b') :
    concatenate t ax [⟨S1, a⟩, ⟨S2, b⟩] h = concatenate t ax [⟨S1, a'⟩, ⟨S2, b'⟩] h := by
  subst ha hb; rfl

/-- An accumulating scatter is determined by its dimension numbers and its three operands. -/
theorem scatterAdd_congr {s i u : Shape} {φ : FTy} {w : ℕ} {d d' : ScatterDims s i u} {a a' : FVec Ideal s φ} {b b' : IVec i w}
    {c c' : FVec Ideal u φ} (hd : d = d') (ha : a = a') (hb : b = b') (hc : c = c') :
    Host.scatterAdd (F := Ideal) d a b c = Host.scatterAdd (F := Ideal) d' a' b' c' := by
  subst hd ha hb hc; rfl

/-- A gather is determined by its dimension numbers and its two operands. -/
theorem gather_congr {s i u : Shape} {α : Type} {w : ℕ} {d d' : GatherDims s i u} {a a' : s.Idx → α} {b b' : IVec i w}
    (hd : d = d') (ha : a = a') (hb : b = b') : Host.gather d a b = Host.gather d' a' b' := by
  subst hd ha hb; rfl

/-- A lane-wise select is determined by its mask and its two operands. -/
theorem select_congr {s : Shape} {α : Type} {c c' : IVec s 1} {a a' b b' : s.Idx → α}
    (hc : c = c') (ha : a = a') (hb : b = b') : select c a b = select c' a' b' := by
  subst hc ha hb; rfl

end Cert.LibConcat

end
-- ==== Proof.HostPre.lean ====
/-
  The host operations of the idealized kernel before its first region, read as functions of the argument arrays. They
  are, operation for operation, the operations with which the reference computes, from the edge list and the edge
  weights, the source node and the target node of every edge with the self-loops appended and the symmetric
  normalisation weight of every edge (the degree of a node is the sum of the weights of the edges into it; the weight
  of an edge is its own weight times the inverse square roots of the degrees of its two ends, zero where the degree
  is not positive). So after the stretch these three buffers hold the reference's stages of the same name, and the
  argument arrays are untouched. Stated over any contents V of the buffers at launch.
-/
import proofs.«150930_j58506044506615_1_alg».proof.Proof.Gen.KernelIdeal.Launch
import proofs.«150930_j58506044506615_1_alg».proof.Proof.Gen.ReferenceIdeal.Read
import proofs.«150930_j58506044506615_1_alg».proof.Proof.LibCallBuf
import proofs.«150930_j58506044506615_1_alg».proof.Proof.LibConcat
import Idealize.ShloMosaic.Lib.StableHlo.Run

set_option maxRecDepth 16384

noncomputable section

namespace Cert.KernelIdeal.HostPre

open Cert.KernelIdeal Cert.KernelIdeal.Gen
open Idealize.ShloMosaic Idealize.ShloMosaic.TcCoe Idealize.ShloMosaic.StableHlo

variable (V : Valuation τ sig (Elt Ideal))

/-! The call's typed references sit at their buffers' own types: reading or writing through one changes nothing. -/

theorem ofBuf_mask (h1 h2 h3) (v : (⟨S100000, .i1⟩ : BufTy).Contents (Elt Ideal)) :
    (TRef.of (T := ⟨S100000, .i1⟩) main_v13 h1 h2 h3).ofBuf v = v := rfl

theorem ofBuf_rsqrt (h1 h2 h3) (v : (⟨S100000, .f32⟩ : BufTy).Contents (Elt Ideal)) :
    (TRef.of (T := ⟨S100000, .f32⟩) main_v14 h1 h2 h3).ofBuf v = v := rfl

theorem ofBuf_zero (h1 h2 h3) (v : (⟨S_, .f32⟩ : BufTy).Contents (Elt Ideal)) :
    (TRef.of (T := ⟨S_, .f32⟩) main_cst_2 h1 h2 h3).ofBuf v = v := rfl

theorem toBuf_dinv (h1 h2 h3) (v : (⟨S100000, .f32⟩ : BufTy).Contents (Elt Ideal)) :
    (TRef.of (T := ⟨S100000, .f32⟩) main_v15 h1 h2 h3).toBuf v = v := rfl

set_option maxHeartbeats 4000000 in
/-- The edges' normalisation weights: the edge's own weight times the inverse square roots of the degrees of its
    source and of its target, the reference's operations one for one. -/
theorem pre_norm : after hostOps0_2 (after hostOps0_1 (after hostOps0 V)) (Proc.devRef .tc main_v31)
    = Cert.ReferenceIdeal.Read.val_main_v31 (F := Ideal) (V (Proc.devRef .tc main_arg1)) (V (Proc.devRef .tc main_arg2)) := by
  dsimp only [hostOps0, hostOps0_1, hostOps0_2]
  after_results_simp
  simp only [Cert.LibCallBuf.ofBuf_toBuf, ofBuf_mask, ofBuf_rsqrt, ofBuf_zero, toBuf_dinv]
  have hdeg : ∀ d, d = Cert.ReferenceIdeal.Read.val_main_v11 (F := Ideal) (V (Proc.devRef .tc main_arg1)) (V (Proc.devRef .tc main_arg2)) →
      select (cmpf .ogt d (broadcastInDim S100000 ![] bcast_S_S100000 (constant (F := Ideal) S_ .f32 0x00000000#32)))
          (Host.rsqrt d) (broadcastInDim S100000 ![] bcast_S_S100000 (id (constant (F := Ideal) S_ .f32 0x00000000#32)))
        = Cert.ReferenceIdeal.Read.val_main_v15 (F := Ideal) (V (Proc.devRef .tc main_arg1)) (V (Proc.devRef .tc main_arg2)) := by
    intro d hd
    subst hd
    rfl
  unfold Cert.ReferenceIdeal.Read.val_main_v31
  refine congrArg₂ mulf ?_ ?_
  · unfold Cert.ReferenceIdeal.Read.val_main_v23
    refine congrArg₂ mulf ?_ rfl
    unfold Cert.ReferenceIdeal.Read.val_main_v22
    refine Cert.LibConcat.gather_congr rfl (hdeg _ ?_) rfl
    unfold Cert.ReferenceIdeal.Read.val_main_v11
    exact Cert.LibConcat.scatterAdd_congr rfl rfl rfl rfl
  · unfold Cert.ReferenceIdeal.Read.val_main_v30
    refine Cert.LibConcat.gather_congr rfl (hdeg _ ?_) rfl
    unfold Cert.ReferenceIdeal.Read.val_main_v11
    exact Cert.LibConcat.scatterAdd_congr rfl rfl rfl rfl

set_option maxHeartbeats 4000000 in
/-- The edges' source nodes. -/
theorem pre_row : after hostOps0_2 (after hostOps0_1 (after hostOps0 V)) (Proc.devRef .tc main_v3)
    = Cert.ReferenceIdeal.Read.val_main_v3 (F := Ideal) (V (Proc.devRef .tc main_arg1)) := by
  dsimp only [hostOps0, hostOps0_1, hostOps0_2]
  after_results_simp
  rfl

set_option maxHeartbeats 4000000 in
/-- The edges' target nodes. -/
theorem pre_col : after hostOps0_2 (after hostOps0_1 (after hostOps0 V)) (Proc.devRef .tc main_v6)
    = Cert.ReferenceIdeal.Read.val_main_v6 (F := Ideal) (V (Proc.devRef .tc main_arg1)) := by
  dsimp only [hostOps0, hostOps0_1, hostOps0_2]
  after_results_simp
  rfl

set_option maxHeartbeats 4000000 in
/-- The float argument arrays the regions and the later stretches read are untouched. -/
theorem pre_keep : after hostOps0_2 (after hostOps0_1 (after hostOps0 V)) (Proc.devRef .tc main_arg0) = V (Proc.devRef .tc main_arg0)
    ∧ after hostOps0_2 (after hostOps0_1 (after hostOps0 V)) (Proc.devRef .tc main_arg3) = V (Proc.devRef .tc main_arg3)
    ∧ after hostOps0_2 (after hostOps0_1 (after hostOps0 V)) (Proc.devRef .tc main_arg4) = V (Proc.devRef .tc main_arg4)
    ∧ after hostOps0_2 (after hostOps0_1 (after hostOps0 V)) (Proc.devRef .tc main_arg5) = V (Proc.devRef .tc main_arg5)
    ∧ after hostOps0_2 (after hostOps0_1 (after hostOps0 V)) (Proc.devRef .tc main_arg6) = V (Proc.devRef .tc main_arg6) := by
  dsimp only [hostOps0, hostOps0_1, hostOps0_2]
  refine ⟨?_, ?_, ?_, ?_, ?_⟩ <;> after_results_simp

end Cert.KernelIdeal.HostPre

end
-- ==== Proof.Result.lean ====
/-
  The two-layer graph convolution as one function of the seven argument arrays, in the kernel's arrangement, and the
  proof that it is the reference's function. With N the edges' normalisation weights, S and T their source and target
  nodes (all three functions of the edge list and the edge weights alone), and agg the aggregation over the edges
  (row v of agg h is the sum over the edges with target v of the edge's weight times row (source) of h):

    hidden = max (agg (x · W1) + b1, 0)        out = agg (hidden · W2) + b2

  The kernel lays a bias vector out as a one-row array by a reshape and adds it to every row; the reference lays it
  out by two broadcasts; at an index both read the vector's entry in the column. The reference computes N, S and T a
  second time for its second layer, by the same operations of the same arguments.
-/
import proofs.«150930_j58506044506615_1_alg».proof.Proof.Gen.ReferenceIdeal.Read
import proofs.«150930_j58506044506615_1_alg».proof.Proof.HostK
import proofs.«150930_j58506044506615_1_alg».proof.Proof.LibAddRow
import proofs.«150930_j58506044506615_1_alg».proof.Proof.LibDot
import proofs.«150930_j58506044506615_1_alg».proof.Proof.LibConcat
import Idealize.ShloMosaic.Lib.ValueLayout

set_option maxRecDepth 16384

noncomputable section

namespace Cert.KernelIdeal.Result

open Cert.KernelIdeal Cert.KernelIdeal.Gen
open Idealize.ShloMosaic Idealize.ShloMosaic.ValueIdx
open Cert.KernelIdeal.HostK (agg64 agg40 wrapIdx)
open Cert.LibAddRow (addRow reluRow)
open Cert.LibConcat (scatterAdd_congr gather_congr)
open Cert.ReferenceIdeal.Read

/-- The reference's two plain matrix products' dimension numbers. -/
abbrev D1 : DotDims S100000x128 S128x64 S100000x64 := Cert.ReferenceIdeal.dot_S100000x128_S128x64_S100000x64_1_0_0_1_n_n
abbrev D2 : DotDims S100000x64 S64x40 S100000x40 := Cert.ReferenceIdeal.dot_S100000x64_S64x40_S100000x40_1_0_0_1_n_n

theorem plainD1 : Cert.LibDot.IsPlain D1 := ⟨rfl, rfl, rfl, rfl, rfl, rfl⟩
theorem plainD2 : Cert.LibDot.IsPlain D2 := ⟨rfl, rfl, rfl, rfl, rfl, rfl⟩

variable (x0 : (⟨S100000x128, .f32⟩ : BufTy).Contents (Elt Ideal)) (x1 : (⟨S2x1600000, .i32⟩ : BufTy).Contents (Elt Ideal))
  (x2 : (⟨S1600000, .f32⟩ : BufTy).Contents (Elt Ideal)) (x3 : (⟨S128x64, .f32⟩ : BufTy).Contents (Elt Ideal))
  (x4 : (⟨S64, .f32⟩ : BufTy).Contents (Elt Ideal)) (x5 : (⟨S64x40, .f32⟩ : BufTy).Contents (Elt Ideal))
  (x6 : (⟨S40, .f32⟩ : BufTy).Contents (Elt Ideal))

/-- x · W1. -/
def lin1 : (⟨S100000x64, .f32⟩ : BufTy).Contents (Elt Ideal) :=
  Host.dotGeneral (F := Ideal) (φ₁ := .f32) (φ₂ := .f32) D1 none x0 x3

/-- agg (x · W1). -/
def agg1 : (⟨S100000x64, .f32⟩ : BufTy).Contents (Elt Ideal) :=
  agg64 (val_main_v31 (F := Ideal) x1 x2) (val_main_v3 (F := Ideal) x1) (val_main_v6 (F := Ideal) x1) (lin1 x0 x3)

/-- The hidden layer: max (agg (x · W1) + b1, 0). -/
def hidden : (⟨S100000x64, .f32⟩ : BufTy).Contents (Elt Ideal) :=
  reluRow (M := 100000) (N := 64) (agg1 x0 x1 x2 x3) (shapeCast S1x64 x4 shapeCasts_S64_S1x64)

/-- hidden · W2. -/
def lin2 : (⟨S100000x40, .f32⟩ : BufTy).Contents (Elt Ideal) :=
  Host.dotGeneral (F := Ideal) (φ₁ := .f32) (φ₂ := .f32) D2 none (hidden x0 x1 x2 x3 x4) x5

/-- agg (hidden · W2). -/
def agg2 : (⟨S100000x40, .f32⟩ : BufTy).Contents (Elt Ideal) :=
  agg40 (val_main_v31 (F := Ideal) x1 x2) (val_main_v3 (F := Ideal) x1) (val_main_v6 (F := Ideal) x1) (lin2 x0 x1 x2 x3 x4 x5)

/-- The result: agg (hidden · W2) + b2. -/
def out : (⟨S100000x40, .f32⟩ : BufTy).Contents (Elt Ideal) :=
  addRow (M := 100000) (N := 40) (agg2 x0 x1 x2 x3 x4 x5) (shapeCast S1x40 x6 shapeCasts_S40_S1x40)

/-! ## Each stage is the reference's -/

theorem agg1_eq : agg1 x0 x1 x2 x3 = val_main_v45 (F := Ideal) x0 x1 x2 x3 := by
  unfold agg1 agg64 val_main_v45
  refine scatterAdd_congr rfl ?_ ?_ ?_
  · rfl
  · rfl
  · unfold val_main_v42
    refine congrArg₂ mulf ?_ ?_
    · rfl
    · unfold val_main_v40
      refine gather_congr rfl ?_ ?_
      · rfl
      · rfl

theorem hidden_eq : hidden x0 x1 x2 x3 x4 = val_main_v49 (F := Ideal) x0 x1 x2 x3 x4 := by
  unfold hidden
  rw [agg1_eq]
  funext i
  rw [val_main_v49_apply, val_main_v48_apply, val_main_v47_apply, val_main_v46_apply, val_main_call1_v0_apply,
    val_main_call1_cst_apply]
  have e : shapeCast S1x64 x4 shapeCasts_S64_S1x64 (ix2 (0 : Fin 1) (i 1)) = x4 (idx_main_v46 (idx_main_v47 i)) :=
    (shapeCast_a_1a_apply x4 shapeCasts_S64_S1x64 (0 : Fin 1) (i 1)).trans
      (congrArg x4 (funext fun a => by match a with | ⟨0, _⟩ => rfl))
  unfold reluRow addRow
  rw [e]

theorem lin2_eq : lin2 x0 x1 x2 x3 x4 x5 = val_main_v82 (F := Ideal) x0 x1 x2 x3 x4 x5 := by
  unfold lin2
  rw [hidden_eq]
  rfl

theorem agg2_eq : agg2 x0 x1 x2 x3 x4 x5 = val_main_v95 (F := Ideal) x0 x1 x2 x3 x4 x5 := by
  unfold agg2
  rw [lin2_eq]
  unfold agg40 val_main_v95
  refine scatterAdd_congr rfl ?_ ?_ ?_
  · rfl
  · rfl
  · unfold val_main_v92
    refine congrArg₂ mulf ?_ ?_
    · rfl
    · unfold val_main_v90
      refine gather_congr rfl ?_ ?_
      · rfl
      · rfl

/-- The kernel's arrangement of the two layers is the reference's function of the arguments. -/
theorem out_eq : out x0 x1 x2 x3 x4 x5 x6 = val_main_v98 (F := Ideal) x0 x1 x2 x3 x4 x5 x6 := by
  unfold out
  rw [agg2_eq]
  funext i
  rw [val_main_v98_apply, val_main_v97_apply, val_main_v96_apply]
  have e : shapeCast S1x40 x6 shapeCasts_S40_S1x40 (ix2 (0 : Fin 1) (i 1)) = x6 (idx_main_v96 (idx_main_v97 i)) :=
    (shapeCast_a_1a_apply x6 shapeCasts_S40_S1x40 (0 : Fin 1) (i 1)).trans
      (congrArg x6 (funext fun a => by match a with | ⟨0, _⟩ => rfl))
  unfold addRow
  rw [e]

end Cert.KernelIdeal.Result

end
-- ==== Proof.Fold.lean ====
/-
  What the idealized kernel's result buffer holds after the last region, as the function `Result.out` of the argument
  arrays. The contents of the buffers are followed from the launch through the segments in order: the first host
  stretch leaves the edges' sources, targets and weights; the first region the product x · W1; the next stretch its
  aggregation and the bias row; the second region the rectified sum; the third region the product with W2; the last
  stretch the aggregation and the bias row; the last region their sum. A region changes only its output array and a host
  stretch only the buffers its operations write, so what an earlier segment left is still there when a later one reads it.
-/
import proofs.«150930_j58506044506615_1_alg».proof.Proof.Gen.KernelIdeal.Frame
import proofs.«150930_j58506044506615_1_alg».proof.Proof.Tiles0
import proofs.«150930_j58506044506615_1_alg».proof.Proof.Tiles1
import proofs.«150930_j58506044506615_1_alg».proof.Proof.Tiles2
import proofs.«150930_j58506044506615_1_alg».proof.Proof.Tiles3
import proofs.«150930_j58506044506615_1_alg».proof.Proof.HostK
import proofs.«150930_j58506044506615_1_alg».proof.Proof.HostPre
import proofs.«150930_j58506044506615_1_alg».proof.Proof.Result

set_option maxRecDepth 16384

noncomputable section

namespace Cert.KernelIdeal.Fold

open Cert.KernelIdeal Cert.KernelIdeal.Gen
open Idealize.ShloMosaic Idealize.ShloMosaic.TcCoe Idealize.SL.Sem Idealize.ShloMosaic.StableHlo
open Cert.KernelIdeal.HostK (agg64 agg40)
open Cert.LibAddRow (addRow reluRow)
open Cert.KernelIdeal.Result
open Cert.ReferenceIdeal.Read (val_main_v31 val_main_v3 val_main_v6)

variable (m : (ℓ : Loc nD τ sig) → Buf (Elt Ideal) ℓ) (ρ : Dev nD → PrngReg)

/-! ## At the first region's entry -/

theorem w3_norm (c : Dev nD) : W3 m ρ c (Proc.devRef .tc main_v31)
    = val_main_v31 (F := Ideal) (m ((c : Thread nD τ).loc main_arg1)) (m ((c : Thread nD τ).loc main_arg2)) :=
  HostPre.pre_norm (W0 m ρ c)

theorem w3_row (c : Dev nD) : W3 m ρ c (Proc.devRef .tc main_v3) = val_main_v3 (F := Ideal) (m ((c : Thread nD τ).loc main_arg1)) :=
  HostPre.pre_row (W0 m ρ c)

theorem w3_col (c : Dev nD) : W3 m ρ c (Proc.devRef .tc main_v6) = val_main_v6 (F := Ideal) (m ((c : Thread nD τ).loc main_arg1)) :=
  HostPre.pre_col (W0 m ρ c)

theorem w3_arg0 (c : Dev nD) : W3 m ρ c (Proc.devRef .tc main_arg0) = m ((c : Thread nD τ).loc main_arg0) := (HostPre.pre_keep (W0 m ρ c)).1
theorem w3_arg3 (c : Dev nD) : W3 m ρ c (Proc.devRef .tc main_arg3) = m ((c : Thread nD τ).loc main_arg3) := (HostPre.pre_keep (W0 m ρ c)).2.1
theorem w3_arg4 (c : Dev nD) : W3 m ρ c (Proc.devRef .tc main_arg4) = m ((c : Thread nD τ).loc main_arg4) := (HostPre.pre_keep (W0 m ρ c)).2.2.1
theorem w3_arg5 (c : Dev nD) : W3 m ρ c (Proc.devRef .tc main_arg5) = m ((c : Thread nD τ).loc main_arg5) := (HostPre.pre_keep (W0 m ρ c)).2.2.2.1
theorem w3_arg6 (c : Dev nD) : W3 m ρ c (Proc.devRef .tc main_arg6) = m ((c : Thread nD τ).loc main_arg6) := (HostPre.pre_keep (W0 m ρ c)).2.2.2.2

/-! ## After the first region: x · W1 -/

theorem w4_lin (c : Dev nD) : W4 m ρ c (Proc.devRef .tc main_v32)
    = lin1 (m ((c : Thread nD τ).loc main_arg0)) (m ((c : Thread nD τ).loc main_arg3)) := by
  refine (W4_arr m ρ c 2).trans ((Tiles.array0 (V3 m ρ) D1 plainD1 c).trans ?_)
  rw [show V3 m ρ c main_arg0 = m ((c : Thread nD τ).loc main_arg0) from w3_arg0 m ρ c,
    show V3 m ρ c main_arg3 = m ((c : Thread nD τ).loc main_arg3) from w3_arg3 m ρ c]
  rfl

theorem w4_norm (c : Dev nD) : W4 m ρ c (Proc.devRef .tc main_v31) = W3 m ρ c (Proc.devRef .tc main_v31) := W4_of_ne m ρ c main_v31 (by decide)
theorem w4_row (c : Dev nD) : W4 m ρ c (Proc.devRef .tc main_v3) = W3 m ρ c (Proc.devRef .tc main_v3) := W4_of_ne m ρ c main_v3 (by decide)
theorem w4_col (c : Dev nD) : W4 m ρ c (Proc.devRef .tc main_v6) = W3 m ρ c (Proc.devRef .tc main_v6) := W4_of_ne m ρ c main_v6 (by decide)
theorem w4_arg4 (c : Dev nD) : W4 m ρ c (Proc.devRef .tc main_arg4) = W3 m ρ c (Proc.devRef .tc main_arg4) := W4_of_ne m ρ c main_arg4 (by decide)
theorem w4_arg5 (c : Dev nD) : W4 m ρ c (Proc.devRef .tc main_arg5) = W3 m ρ c (Proc.devRef .tc main_arg5) := W4_of_ne m ρ c main_arg5 (by decide)
theorem w4_arg6 (c : Dev nD) : W4 m ρ c (Proc.devRef .tc main_arg6) = W3 m ρ c (Proc.devRef .tc main_arg6) := W4_of_ne m ρ c main_arg6 (by decide)

/-! ## At the second region's entry: the aggregation and the bias row -/

theorem w5_agg (c : Dev nD) : W5 m ρ c (Proc.devRef .tc main_v45)
    = agg1 (m ((c : Thread nD τ).loc main_arg0)) (m ((c : Thread nD τ).loc main_arg1)) (m ((c : Thread nD τ).loc main_arg2)) (m ((c : Thread nD τ).loc main_arg3)) := by
  refine (HostK.mid1_agg (W4 m ρ c)).trans ?_
  rw [w4_norm, w4_row, w4_col, w4_lin, w3_norm, w3_row, w3_col]
  rfl

theorem w5_bias (c : Dev nD) : W5 m ρ c (Proc.devRef .tc main_v46)
    = shapeCast S1x64 (m ((c : Thread nD τ).loc main_arg4)) shapeCasts_S64_S1x64 := by
  refine (HostK.mid1_bias (W4 m ρ c)).trans ?_
  rw [w4_arg4, w3_arg4]

theorem w5_norm (c : Dev nD) : W5 m ρ c (Proc.devRef .tc main_v31) = W3 m ρ c (Proc.devRef .tc main_v31) := (HostK.mid1_keep (W4 m ρ c)).1.trans (w4_norm m ρ c)
theorem w5_row (c : Dev nD) : W5 m ρ c (Proc.devRef .tc main_v3) = W3 m ρ c (Proc.devRef .tc main_v3) := (HostK.mid1_keep (W4 m ρ c)).2.1.trans (w4_row m ρ c)
theorem w5_col (c : Dev nD) : W5 m ρ c (Proc.devRef .tc main_v6) = W3 m ρ c (Proc.devRef .tc main_v6) := (HostK.mid1_keep (W4 m ρ c)).2.2.1.trans (w4_col m ρ c)
theorem w5_arg5 (c : Dev nD) : W5 m ρ c (Proc.devRef .tc main_arg5) = W3 m ρ c (Proc.devRef .tc main_arg5) := (HostK.mid1_keep (W4 m ρ c)).2.2.2.1.trans (w4_arg5 m ρ c)
theorem w5_arg6 (c : Dev nD) : W5 m ρ c (Proc.devRef .tc main_arg6) = W3 m ρ c (Proc.devRef .tc main_arg6) := (HostK.mid1_keep (W4 m ρ c)).2.2.2.2.trans (w4_arg6 m ρ c)

/-! ## After the second region: the hidden layer -/

theorem w6_hidden (c : Dev nD) : W6 m ρ c (Proc.devRef .tc main_v47)
    = hidden (m ((c : Thread nD τ).loc main_arg0)) (m ((c : Thread nD τ).loc main_arg1)) (m ((c : Thread nD τ).loc main_arg2))
        (m ((c : Thread nD τ).loc main_arg3)) (m ((c : Thread nD τ).loc main_arg4)) := by
  refine (W6_arr m ρ c 2).trans ((Tiles1.array1 (V5 m ρ) c).trans ?_)
  rw [show V5 m ρ c main_v45 = _ from w5_agg m ρ c, show V5 m ρ c main_v46 = _ from w5_bias m ρ c]
  rfl

theorem w6_norm (c : Dev nD) : W6 m ρ c (Proc.devRef .tc main_v31) = W3 m ρ c (Proc.devRef .tc main_v31) := (W6_of_ne m ρ c main_v31 (by decide)).trans (w5_norm m ρ c)
theorem w6_row (c : Dev nD) : W6 m ρ c (Proc.devRef .tc main_v3) = W3 m ρ c (Proc.devRef .tc main_v3) := (W6_of_ne m ρ c main_v3 (by decide)).trans (w5_row m ρ c)
theorem w6_col (c : Dev nD) : W6 m ρ c (Proc.devRef .tc main_v6) = W3 m ρ c (Proc.devRef .tc main_v6) := (W6_of_ne m ρ c main_v6 (by decide)).trans (w5_col m ρ c)
theorem w6_arg5 (c : Dev nD) : W6 m ρ c (Proc.devRef .tc main_arg5) = W3 m ρ c (Proc.devRef .tc main_arg5) := (W6_of_ne m ρ c main_arg5 (by decide)).trans (w5_arg5 m ρ c)
theorem w6_arg6 (c : Dev nD) : W6 m ρ c (Proc.devRef .tc main_arg6) = W3 m ρ c (Proc.devRef .tc main_arg6) := (W6_of_ne m ρ c main_arg6 (by decide)).trans (w5_arg6 m ρ c)

/-! ## After the third region: hidden · W2 -/

theorem w7_lin (c : Dev nD) : W7 m ρ c (Proc.devRef .tc main_v48)
    = lin2 (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  refine (W7_arr m ρ c 2).trans ((Tiles2.array2 (V6 m ρ) D2 plainD2 c).trans ?_)
  rw [show V6 m ρ c main_v47 = _ from w6_hidden m ρ c,
    show V6 m ρ c main_arg5 = m ((c : Thread nD τ).loc main_arg5) from (w6_arg5 m ρ c).trans (w3_arg5 m ρ c)]
  rfl

theorem w7_norm (c : Dev nD) : W7 m ρ c (Proc.devRef .tc main_v31) = W3 m ρ c (Proc.devRef .tc main_v31) := (W7_of_ne m ρ c main_v31 (by decide)).trans (w6_norm m ρ c)
theorem w7_row (c : Dev nD) : W7 m ρ c (Proc.devRef .tc main_v3) = W3 m ρ c (Proc.devRef .tc main_v3) := (W7_of_ne m ρ c main_v3 (by decide)).trans (w6_row m ρ c)
theorem w7_col (c : Dev nD) : W7 m ρ c (Proc.devRef .tc main_v6) = W3 m ρ c (Proc.devRef .tc main_v6) := (W7_of_ne m ρ c main_v6 (by decide)).trans (w6_col m ρ c)
theorem w7_arg6 (c : Dev nD) : W7 m ρ c (Proc.devRef .tc main_arg6) = W3 m ρ c (Proc.devRef .tc main_arg6) := (W7_of_ne m ρ c main_arg6 (by decide)).trans (w6_arg6 m ρ c)

/-! ## At the last region's entry, and after it -/

theorem w8_agg (c : Dev nD) : W8 m ρ c (Proc.devRef .tc main_v61)
    = agg2 (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  refine (HostK.mid3_agg (W7 m ρ c)).trans ?_
  rw [w7_norm, w7_row, w7_col, w7_lin, w3_norm, w3_row, w3_col]
  rfl

theorem w8_bias (c : Dev nD) : W8 m ρ c (Proc.devRef .tc main_v62)
    = shapeCast S1x40 (m ((c : Thread nD τ).loc main_arg6)) shapeCasts_S40_S1x40 := by
  refine (HostK.mid3_bias (W7 m ρ c)).trans ?_
  rw [w7_arg6, w3_arg6]

/-- The result buffer after the last region holds the two layers' function of the argument arrays. -/
theorem w9_out (c : Dev nD) : W9 m ρ c (Proc.devRef .tc main_v63)
    = out (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) := by
  refine (W9_arr m ρ c 2).trans ((Tiles3.array3 (V8 m ρ) c).trans ?_)
  rw [show V8 m ρ c main_v61 = _ from w8_agg m ρ c, show V8 m ρ c main_v62 = _ from w8_bias m ρ c]
  rfl

end Cert.KernelIdeal.Fold

end
-- ==== Proof.lean ====
/-
  The certificate of a two-layer graph convolution computed by four pipelined regions among host operations against
  its plain reference. Both programs compute, from the edge list and the edge weights, the same normalisation weights
  and the same aggregation over the edges by the same host operations; they differ in that the kernel computes each
  layer's dense product x · W tile by tile on the matrix unit from operands narrowed to a shorter format, and adds the
  bias (and rectifies) tile by tile, where the reference uses one product and one addition over the whole arrays. On
  the extended reals narrowing is the identity and a product into zero is the textbook sum, so each region's output
  array is the reference's operation on the whole arrays, and the two results are one function of the arguments. No
  property of the inputs is used.
-/
import proofs.«150930_j58506044506615_1_alg».proof.Defs
import proofs.«150930_j58506044506615_1_alg».proof.Proof.Gen.Kernel
import proofs.«150930_j58506044506615_1_alg».proof.Proof.Gen.Kernel.Frame
import proofs.«150930_j58506044506615_1_alg».proof.Proof.Gen.KernelIdeal
import proofs.«150930_j58506044506615_1_alg».proof.Proof.Gen.KernelIdeal.Frame
import proofs.«150930_j58506044506615_1_alg».proof.Proof.Gen.ReferenceIdeal
import proofs.«150930_j58506044506615_1_alg».proof.Proof.Gen.ReferenceIdeal.Run
import proofs.«150930_j58506044506615_1_alg».proof.Proof.Gen.ReferenceIdeal.Read
import proofs.«150930_j58506044506615_1_alg».proof.Proof.Gen.Pre_finite_inputs
import proofs.«150930_j58506044506615_1_alg».proof.Proof.KernelRun
import proofs.«150930_j58506044506615_1_alg».proof.Proof.Fold
import proofs.«150930_j58506044506615_1_alg».proof.Proof.Result
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's run with its result dropped. -/
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the two layers' function of the argument arrays in their result buffers. -/
theorem algebraic : Cert.algebraic_KernelIdeal_ReferenceIdeal := by
  intro m ρ m' ρ' _ hagree
  refine ⟨fun c => Cert.KernelIdeal.Result.out (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6)), ?_, ?_⟩
  · exact (θ_run Cert.KernelIdeal.defs _ _).mono
      (fun r h c => ⟨(h c).1.trans (Cert.KernelIdeal.Fold.w9_out m ρ c), (h c).2⟩)
      (Cert.KernelIdeal.Named.run_named (F := Ideal) m ρ)
  · refine (θ_run Cert.ReferenceIdeal.defs _ _).mono (fun _ h c => ⟨(h c).1.trans ?_, (h c).2⟩)
      (Cert.ReferenceIdeal.Value.run (F := Ideal) m' ρ')
    refine (Cert.ReferenceIdeal.Read.val_main_v98_eq m' c).trans ?_
    rw [(hagree c).1, (hagree c).2.1, (hagree c).2.2.1, (hagree c).2.2.2.1, (hagree c).2.2.2.2.1, (hagree c).2.2.2.2.2.1,
      (hagree c).2.2.2.2.2.2]
    exact (Cert.KernelIdeal.Result.out_eq _ _ _ _ _ _ _).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
